-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x3072 : Shape := ⟨2, ![1024, 3072]⟩
abbrev S1024x2048 : Shape := ⟨2, ![1024, 2048]⟩
abbrev S3072 : Shape := ⟨1, ![3072]⟩
abbrev S1x3072 : Shape := ⟨2, ![1, 3072]⟩
abbrev S2048 : Shape := ⟨1, ![2048]⟩
abbrev S1x2048 : Shape := ⟨2, ![1, 2048]⟩
abbrev S1x1024 : Shape := ⟨2, ![1, 1024]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x3072, .f32⟩
  | .hbm, ⟨18, _⟩ => ⟨S1024x3072, .bf16⟩
  | .hbm, ⟨19, _⟩ => ⟨S1024x1024, .f32⟩
  | .hbm, ⟨20, _⟩ => ⟨S1024x1024, .f32⟩
  | .hbm, ⟨21, _⟩ => ⟨S1024x2048, .f32⟩
  | .hbm, ⟨22, _⟩ => ⟨S1024x2048, .bf16⟩
  | .hbm, ⟨23, _⟩ => ⟨S1024x1024, .f32⟩
  | .hbm, ⟨24, _⟩ => ⟨S1024x1024, .bf16⟩
  | .hbm, ⟨25, _⟩ => ⟨S3072, .f32⟩
  | .hbm, ⟨26, _⟩ => ⟨S1x3072, .f32⟩
  | .hbm, ⟨27, _⟩ => ⟨S2048, .f32⟩
  | .hbm, ⟨28, _⟩ => ⟨S1x2048, .f32⟩
  | .hbm, ⟨29, _⟩ => ⟨S1x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x1024, .bf16⟩
  | .local _ .vmem, ⟨7, _⟩ => ⟨S1x3072, .f32⟩
  | .local _ .vmem, ⟨8, _⟩ => ⟨S1x2048, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024x1024_S1024x1024_S1024x2048_d1 : Shape.Concatenates [S1024x1024, S1024x1024] S1024x2048 1
  concatenates_S1024_S1024_S1024_S3072_d0 : Shape.Concatenates [S1024, S1024, S1024] S3072 0
  shapeCasts_S3072_S1x3072 : S3072.ShapeCasts S1x3072
  concatenates_S1024_S1024_S2048_d0 : Shape.Concatenates [S1024, S1024] S2048 0
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x3072_S256x3072_1_0_0_1_n_n_wf : DotDims.WF S256x1024 S1024x3072 S256x3072 [1] [0] [0] [1] [] []
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S8192x3072 : Shape := ⟨2, ![8192, 3072]⟩
abbrev S1x3072 : Shape := ⟨2, ![1, 3072]⟩
abbrev S2048x1024 : Shape := ⟨2, ![2048, 1024]⟩
abbrev S2048 : Shape := ⟨1, ![2048]⟩
abbrev S1024x2048 : Shape := ⟨2, ![1024, 2048]⟩
abbrev S8192x2048 : Shape := ⟨2, ![8192, 2048]⟩
abbrev S1x2048 : Shape := ⟨2, ![1, 2048]⟩
abbrev S_ : Shape := ⟨0, ![]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S3072x1024, .f32⟩
  | .hbm, ⟨15, _⟩ => ⟨S3072, .f32⟩
  | .hbm, ⟨16, _⟩ => ⟨S1024x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S2048x1024, .f32⟩
  | .hbm, ⟨25, _⟩ => ⟨S2048, .f32⟩
  | .hbm, ⟨26, _⟩ => ⟨S1024x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  concatenates_S1024x1024_S1024x1024_S2048x1024_d0 : Shape.Concatenates [S1024x1024, S1024x1024] S2048x1024 0
  concatenates_S1024_S1024_S2048_d0 : Shape.Concatenates [S1024, S1024] S2048 0
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x1024_0_0 : S8192x2048.Slices ![0, 0] S8192x1024
  slices_S8192x2048_S8192x1024_0_1024 : S8192x2048.Slices ![0, 1024] S8192x1024
  bcast_S_S8192x1024 : S_.BroadcastsInDim S8192x1024 (![] : Fin 0 → Fin S8192x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x3072_S8192x3072_1_0_0_1_n_n_wf : DotDims.WF S8192x1024 S1024x3072 S8192x3072 [1] [0] [0] [1] [] []
  dot_S8192x1024_S1024x2048_S8192x2048_1_0_0_1_n_n_wf : DotDims.WF S8192x1024 S1024x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BitsBody.lean ====
/-
  One grid point of the recurrent cell's body, as a statement about memory.

  The body is handed nine whole buffers: a block of 256 rows of the input `x` and of the previous state `h`, the
  three fused weight matrices (1024 × 3072, 1024 × 2048, 1024 × 1024), their three bias rows, and the output block.
  It loads the eight inputs whole, computes the new state of the 256 rows, and stores it over the whole output
  block (whose earlier contents it also loads, and never uses).  `newState` names what the output block holds
  afterwards, as the one whole-block store read back; `body_run` is the body's triple: inputs unchanged, output
  at `newState` of the inputs, whatever the output held before.
-/
import proofs.«120401_j27410481283547_2_alg».proof.Proof.Gen.Kernel.Launch
import proofs.«120401_j27410481283547_2_alg».proof.Proof.Gen.Kernel.Skeleton
import proofs.«120401_j27410481283547_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rRows : Rect S256x1024 := Rect.unit (s := S256x1024) ![0, 0] S256x1024.size inb_S256x1024_S256x1024_0_0
abbrev rWx : Rect S1024x3072 := Rect.unit (s := S1024x3072) ![0, 0] S1024x3072.size inb_S1024x3072_S1024x3072_0_0
abbrev rWh : Rect S1024x2048 := Rect.unit (s := S1024x2048) ![0, 0] S1024x2048.size inb_S1024x2048_S1024x2048_0_0
abbrev rWc : Rect S1024x1024 := Rect.unit (s := S1024x1024) ![0, 0] S1024x1024.size inb_S1024x1024_S1024x1024_0_0
abbrev rBx : Rect S1x3072 := Rect.unit (s := S1x3072) ![0, 0] S1x3072.size inb_S1x3072_S1x3072_0_0
abbrev rBh : Rect S1x2048 := Rect.unit (s := S1x2048) ![0, 0] S1x2048.size inb_S1x2048_S1x2048_0_0
abbrev rBc : Rect S1x1024 := Rect.unit (s := S1x1024) ![0, 0] S1x1024.size inb_S1x1024_S1x1024_0_0

/-! ## What the output block holds after the body -/

/-- The output block after the body, from the eight input buffers' contents: the body's one store, of the new
    state computed from the loaded inputs, read back over the whole block. -/
def newState (x0 x1 : Vec F S256x1024 .f32) (x2 : Vec F S1024x3072 .bf16) (x3 : Vec F S1024x2048 .bf16) (x4 : Vec F S1024x1024 .bf16)
    (x5 : Vec F S1x3072 .f32) (x6 : Vec F S1x2048 .f32) (x7 : Vec F S1x1024 .f32) : Vec F S256x1024 .f32 :=
  View.canon [⟨rRows, k0_pay1 (View.ld x1 rRows)
    (k0_pay4 (View.ld x0 rRows) (View.ld x1 rRows) (View.ld x2 rWx) (View.ld x5 rBx) (View.ld x3 rWh) (View.ld x6 rBh))
    (k0_pay5 (View.ld x0 rRows) (View.ld x1 rRows) (View.ld x2 rWx) (View.ld x5 rBx) (View.ld x3 rWh) (View.ld x6 rBh) (View.ld x4 rWc) (View.ld x7 rBc))
    (k0_pay6 (F := F))⟩]

/-- The one store is through the whole block's rectangle, so it covers the block. -/
theorem newState_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole buffers, the eight inputs at contents `x0 … x7` and the output at anything, runs to the
    continuation with the inputs as they were and the output at `newState` of the inputs. -/
theorem body_run (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S1024x3072 .bf16) (h3 : a3.IsWhole) (a4 : Memref sig .tc .vmem S1024x2048 .bf16) (h4 : a4.IsWhole)
    (a5 : Memref sig .tc .vmem S1024x1024 .bf16) (h5 : a5.IsWhole) (a6 : Memref sig .tc .vmem S1x3072 .f32) (h6 : a6.IsWhole)
    (a7 : Memref sig .tc .vmem S1x2048 .f32) (h7 : a7.IsWhole) (a8 : Memref sig .tc .vmem S1x1024 .f32) (h8 : a8.IsWhole)
    (a9 : Memref sig .tc .vmem S256x1024 .f32) (h9 : a9.IsWhole)
    (x0 x1 : Vec F S256x1024 .f32) (x2 : Vec F S1024x3072 .bf16) (x3 : Vec F S1024x2048 .bf16) (x4 : Vec F S1024x1024 .bf16)
    (x5 : Vec F S1x3072 .f32) (x6 : Vec F S1x2048 .f32) (x7 : Vec F S1x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (newState x0 x1 x2 x3 x4 x5 x6 x7)) -∗ K ⟨⟩))
      ⊢ wp frame (wpE (defs₀ (F := F)) Variants.none c none) E
          (cc0__gru_kernel i a1 h1 a2 h2 a3 h3 a4 h4 a5 h5 a6 h6 a7 h7 a8 h8 a9 h9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (newState_cover _)

end Cert.Kernel.Cell

end
-- ==== Proof.BitsHost.lean ====
/-
  The host side of the program, up to the one kernel launch.

  Before the launch the host transposes the six weight matrices, joins the transposed matrices side by side into the
  three fused weights (and rounds them to bfloat16), joins the bias vectors end to end and lays each out as one row.
  None of these sixteen operations writes an argument array, so the launch finds every argument as the program was
  started with it (`entry_main_argK`); `entry` names every buffer's contents at the launch, and `main_to_launch`
  says the program is those operations followed by the launch.
-/
import proofs.«120401_j27410481283547_2_alg».proof.Proof.Gen.Kernel.Launch
import Idealize.ShloMosaic.Lib.Pipeline.FrameBody
import Idealize.ShloMosaic.Lib.StableHlo.Run

noncomputable section

namespace Cert.Kernel.Cell

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the launch is reached: the launch memory after the host's sixteen operations. -/
abbrev entry (c : Dev nD) (b : Ref sig .tc) : Buf (Elt F) ((c : Thread nD τ).loc b) :=
  StableHlo.after hostOps0 (fun b => m (c, b)) b

/-- Every one of the sixteen operations writes a buffer that already holds a value. -/
theorem hostOps0_fresh : (hostOps0 : List (HloOp τ sig (Elt F))).Forall fun op => op.fresh = ∅ := by
  simp only [List.Forall]; repeat' constructor

/-- The program is the sixteen host operations, then the launch. -/
theorem main_to_launch (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes `main_arg0`: the launch finds it as the program was started with it. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg1`: the launch finds it as the program was started with it. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg2`: the launch finds it as the program was started with it. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg3`: the launch finds it as the program was started with it. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg4`: the launch finds it as the program was started with it. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg5`: the launch finds it as the program was started with it. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg6`: the launch finds it as the program was started with it. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg7`: the launch finds it as the program was started with it. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg8`: the launch finds it as the program was started with it. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg9`: the launch finds it as the program was started with it. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg10`: the launch finds it as the program was started with it. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg11`: the launch finds it as the program was started with it. -/
theorem entry_main_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg12`: the launch finds it as the program was started with it. -/
theorem entry_main_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg13`: the launch finds it as the program was started with it. -/
theorem entry_main_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

end Cert.Kernel.Cell

end
-- ==== Proof.BitsFrame.lean ====
/-
  The launch of the recurrent cell's kernel over its 32 grid points, and the frame it gives.

  Point `t` of the grid works on rows `256·t … 256·t + 255`: the pipeline hands the body the blocks of `x` and `h` at
  those rows, the three fused weights and the three bias rows whole (fetched once, at the first point, and left in
  place), and an output block, which it writes back to the result's rows after the body.  `blockAt` is a window's
  block at a point, read off the array as the launch finds it; `launchData` says what each staging buffer holds
  after the body (an input its block, the output `newState` of the eight input blocks); `run_launch` is the run of
  the whole program to the library's post (every array of the launch at what the write-backs leave, every other
  buffer as the launch found it); and `frame` reads off it that all fourteen argument arrays end as they began.
-/
import proofs.«120401_j27410481283547_2_alg».proof.Proof.BitsBody
import proofs.«120401_j27410481283547_2_alg».proof.Proof.BitsHost

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not (where it is not
    fetched its block index has not moved), for any proof data over the launch's arrays whose body leaves the block in place. -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (where it is not
    fetched its block index has not moved), for any proof data over the launch's arrays whose body leaves the block in place. -/
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (where it is not
    fetched its block index has not moved), for any proof data over the launch's arrays whose body leaves the block in place. -/
theorem found2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (where it is not
    fetched its block index has not moved), for any proof data over the launch's arrays whose body leaves the block in place. -/
theorem found3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (where it is not
    fetched its block index has not moved), for any proof data over the launch's arrays whose body leaves the block in place. -/
theorem found4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not (where it is not
    fetched its block index has not moved), for any proof data over the launch's arrays whose body leaves the block in place. -/
theorem found5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point, fetched there or not (where it is not
    fetched its block index has not moved), for any proof data over the launch's arrays whose body leaves the block in place. -/
theorem found6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point, fetched there or not (where it is not
    fetched its block index has not moved), for any proof data over the launch's arrays whose body leaves the block in place. -/
theorem found7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run to the library's post -/

/-- For any proof data over the launch's arrays, a run to the library's post is the frame: `x` and `h` are staged
    inputs, never written back; the other twelve arguments are no window's array and are left as the launch found
    them; and the launch found all fourteen as the program was started with them. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c)⟩) h

/-! ## The launch's proof data -/

/-- The proof data of the launch on core `c`: the arrays as the launch finds them; after the body at point `t` each
    input's buffer at its block and the output's at `newState` of the eight input blocks; the invariant is the scoped
    rest and the generator register, untouched; nothing owed; full shares. -/
def launchData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => newState (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

/-- The proof data's arrays are the launch's. -/
theorem launchData_A (c : Dev nD) (w : Fin cfg0.W) : (launchData m 0 c).A w = entry m c (Pipeline.arrRef spec0 w) := by
  dsimp only [launchData]

theorem after0 (c : Dev nD) (t : Fin cfg0.N) : (launchData m 0 c).after 0 t = blockAt m c 0 t := by dsimp only [launchData]
theorem after1 (c : Dev nD) (t : Fin cfg0.N) : (launchData m 0 c).after 1 t = blockAt m c 1 t := by dsimp only [launchData]
theorem after2 (c : Dev nD) (t : Fin cfg0.N) : (launchData m 0 c).after 2 t = blockAt m c 2 t := by dsimp only [launchData]
theorem after3 (c : Dev nD) (t : Fin cfg0.N) : (launchData m 0 c).after 3 t = blockAt m c 3 t := by dsimp only [launchData]
theorem after4 (c : Dev nD) (t : Fin cfg0.N) : (launchData m 0 c).after 4 t = blockAt m c 4 t := by dsimp only [launchData]
theorem after5 (c : Dev nD) (t : Fin cfg0.N) : (launchData m 0 c).after 5 t = blockAt m c 5 t := by dsimp only [launchData]
theorem after6 (c : Dev nD) (t : Fin cfg0.N) : (launchData m 0 c).after 6 t = blockAt m c 6 t := by dsimp only [launchData]
theorem after7 (c : Dev nD) (t : Fin cfg0.N) : (launchData m 0 c).after 7 t = blockAt m c 7 t := by dsimp only [launchData]
theorem after8 (c : Dev nD) (t : Fin cfg0.N) : (launchData m 0 c).after 8 t
    = newState (blockAt m c 0 t) (blockAt m c 1 t) (blockAt m c 2 t) (blockAt m c 3 t) (blockAt m c 4 t) (blockAt m c 5 t) (blockAt m c 6 t) (blockAt m c 7 t) := by
  dsimp only [launchData]

theorem found0 (c : Dev nD) (t : Fin cfg0.N) (d) : (launchData m 0 c).before 0 t d = blockAt m c 0 t :=
  found0_of m (launchData m 0 c) (launchData_A m c 0) (after0 m c) t d
theorem found1 (c : Dev nD) (t : Fin cfg0.N) (d) : (launchData m 0 c).before 1 t d = blockAt m c 1 t :=
  found1_of m (launchData m 0 c) (launchData_A m c 1) (after1 m c) t d
theorem found2 (c : Dev nD) (t : Fin cfg0.N) (d) : (launchData m 0 c).before 2 t d = blockAt m c 2 t :=
  found2_of m (launchData m 0 c) (launchData_A m c 2) (after2 m c) t d
theorem found3 (c : Dev nD) (t : Fin cfg0.N) (d) : (launchData m 0 c).before 3 t d = blockAt m c 3 t :=
  found3_of m (launchData m 0 c) (launchData_A m c 3) (after3 m c) t d
theorem found4 (c : Dev nD) (t : Fin cfg0.N) (d) : (launchData m 0 c).before 4 t d = blockAt m c 4 t :=
  found4_of m (launchData m 0 c) (launchData_A m c 4) (after4 m c) t d
theorem found5 (c : Dev nD) (t : Fin cfg0.N) (d) : (launchData m 0 c).before 5 t d = blockAt m c 5 t :=
  found5_of m (launchData m 0 c) (launchData_A m c 5) (after5 m c) t d
theorem found6 (c : Dev nD) (t : Fin cfg0.N) (d) : (launchData m 0 c).before 6 t d = blockAt m c 6 t :=
  found6_of m (launchData m 0 c) (launchData_A m c 6) (after6 m c) t d
theorem found7 (c : Dev nD) (t : Fin cfg0.N) (d) : (launchData m 0 c).before 7 t d = blockAt m c 7 t :=
  found7_of m (launchData m 0 c) (launchData_A m c 7) (after7 m c) t d

/-! ## The body obligation, at a generic point -/

/-- What the body is called with at point `t`, the windows one by one, -/
def bodyPre (c : Dev nD) (t : Fin cfg0.N) : sProp 𝕄 :=
  iprop((launchData m 0 c).Φ t.castSucc ∗ (launchData m 0 c).owesAt () t.castSucc
    ∗ (∃ d, owns (c : Thread nD τ) (st0_0 t) fullShare ((launchData m 0 c).before 0 t d))
    ∗ (∃ d, owns (c : Thread nD τ) (st0_1 t) fullShare ((launchData m 0 c).before 1 t d))
    ∗ (∃ d, owns (c : Thread nD τ) (st0_2 t) fullShare ((launchData m 0 c).before 2 t d))
    ∗ (∃ d, owns (c : Thread nD τ) (st0_3 t) fullShare ((launchData m 0 c).before 3 t d))
    ∗ (∃ d, owns (c : Thread nD τ) (st0_4 t) fullShare ((launchData m 0 c).before 4 t d))
    ∗ (∃ d, owns (c : Thread nD τ) (st0_5 t) fullShare ((launchData m 0 c).before 5 t d))
    ∗ (∃ d, owns (c : Thread nD τ) (st0_6 t) fullShare ((launchData m 0 c).before 6 t d))
    ∗ (∃ d, owns (c : Thread nD τ) (st0_7 t) fullShare ((launchData m 0 c).before 7 t d))
    ∗ (∃ d, owns (c : Thread nD τ) (st0_8 t) fullShare ((launchData m 0 c).before 8 t d)))

/-- and what it returns. -/
def bodyPost (c : Dev nD) (t : Fin cfg0.N) : sProp 𝕄 :=
  iprop((launchData m 0 c).Φ t.succ ∗ (launchData m 0 c).owesAt () t.succ
    ∗ owns (c : Thread nD τ) (st0_0 t) fullShare ((launchData m 0 c).after 0 t)
    ∗ owns (c : Thread nD τ) (st0_1 t) fullShare ((launchData m 0 c).after 1 t)
    ∗ owns (c : Thread nD τ) (st0_2 t) fullShare ((launchData m 0 c).after 2 t)
    ∗ owns (c : Thread nD τ) (st0_3 t) fullShare ((launchData m 0 c).after 3 t)
    ∗ owns (c : Thread nD τ) (st0_4 t) fullShare ((launchData m 0 c).after 4 t)
    ∗ owns (c : Thread nD τ) (st0_5 t) fullShare ((launchData m 0 c).after 5 t)
    ∗ owns (c : Thread nD τ) (st0_6 t) fullShare ((launchData m 0 c).after 6 t)
    ∗ owns (c : Thread nD τ) (st0_7 t) fullShare ((launchData m 0 c).after 7 t)
    ∗ owns (c : Thread nD τ) (st0_8 t) fullShare ((launchData m 0 c).after 8 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (launchData m 0 c).Φ t.succ = (launchData m 0 c).Φ t.castSucc from rfl,
    show (launchData m 0 c).owesAt () t.succ = (launchData m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (launchData (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the launch at what the library computes from the proof data and every other unscoped buffer
    as the launch found it. -/
theorem run_launch : θ_run defs (onTc (τ := τ) (main (F := F))) (s₀ m ρ) (Pipeline.FramePost cfgs (launchData m) 0 (entry m)) :=
  Pipeline.θ_run_frame cfgs (launchData m) (0 : Fin 1) launch0 defs₀ Variants.none m ρ main
    (hbody := fun c => (body_obligation m c).loose) (hshare := fun c => (launchData m 0 c).share_full fun _ => rfl)
    (howed := fun _ _ => rfl) (V := entry m) (hmain := main_to_launch m Variants.none) (hA := launchData_A m) (hΦ := fun _ _ => rfl)

/-- The frame: the program runs to the end, faults nowhere, and leaves its fourteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (launchData m) (launchData_A m) (run_launch m ρ)

end Cert.Kernel.Cell

end
-- ==== Proof.IdealBody.lean ====
/-
  One grid point of the recurrent cell's body, as a statement about memory.

  The body is handed nine whole buffers: a block of 256 rows of the input `x` and of the previous state `h`, the
  three fused weight matrices (1024 × 3072, 1024 × 2048, 1024 × 1024), their three bias rows, and the output block.
  It loads the eight inputs whole, computes the new state of the 256 rows, and stores it over the whole output
  block (whose earlier contents it also loads, and never uses).  `newState` names what the output block holds
  afterwards, as the one whole-block store read back; `body_run` is the body's triple: inputs unchanged, output
  at `newState` of the inputs, whatever the output held before.
-/
import proofs.«120401_j27410481283547_2_alg».proof.Proof.Gen.KernelIdeal.Launch
import proofs.«120401_j27410481283547_2_alg».proof.Proof.Gen.KernelIdeal.Skeleton
import proofs.«120401_j27410481283547_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rRows : Rect S256x1024 := Rect.unit (s := S256x1024) ![0, 0] S256x1024.size inb_S256x1024_S256x1024_0_0
abbrev rWx : Rect S1024x3072 := Rect.unit (s := S1024x3072) ![0, 0] S1024x3072.size inb_S1024x3072_S1024x3072_0_0
abbrev rWh : Rect S1024x2048 := Rect.unit (s := S1024x2048) ![0, 0] S1024x2048.size inb_S1024x2048_S1024x2048_0_0
abbrev rWc : Rect S1024x1024 := Rect.unit (s := S1024x1024) ![0, 0] S1024x1024.size inb_S1024x1024_S1024x1024_0_0
abbrev rBx : Rect S1x3072 := Rect.unit (s := S1x3072) ![0, 0] S1x3072.size inb_S1x3072_S1x3072_0_0
abbrev rBh : Rect S1x2048 := Rect.unit (s := S1x2048) ![0, 0] S1x2048.size inb_S1x2048_S1x2048_0_0
abbrev rBc : Rect S1x1024 := Rect.unit (s := S1x1024) ![0, 0] S1x1024.size inb_S1x1024_S1x1024_0_0

/-! ## What the output block holds after the body -/

/-- The output block after the body, from the eight input buffers' contents: the body's one store, of the new
    state computed from the loaded inputs, read back over the whole block. -/
def newState (x0 x1 : Vec F S256x1024 .f32) (x2 : Vec F S1024x3072 .bf16) (x3 : Vec F S1024x2048 .bf16) (x4 : Vec F S1024x1024 .bf16)
    (x5 : Vec F S1x3072 .f32) (x6 : Vec F S1x2048 .f32) (x7 : Vec F S1x1024 .f32) : Vec F S256x1024 .f32 :=
  View.canon [⟨rRows, k0_pay1 (View.ld x1 rRows)
    (k0_pay4 (View.ld x0 rRows) (View.ld x1 rRows) (View.ld x2 rWx) (View.ld x5 rBx) (View.ld x3 rWh) (View.ld x6 rBh))
    (k0_pay5 (View.ld x0 rRows) (View.ld x1 rRows) (View.ld x2 rWx) (View.ld x5 rBx) (View.ld x3 rWh) (View.ld x6 rBh) (View.ld x4 rWc) (View.ld x7 rBc))
    (k0_pay6 (F := F))⟩]

/-- The one store is through the whole block's rectangle, so it covers the block. -/
theorem newState_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole buffers, the eight inputs at contents `x0 … x7` and the output at anything, runs to the
    continuation with the inputs as they were and the output at `newState` of the inputs. -/
theorem body_run (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S1024x3072 .bf16) (h3 : a3.IsWhole) (a4 : Memref sig .tc .vmem S1024x2048 .bf16) (h4 : a4.IsWhole)
    (a5 : Memref sig .tc .vmem S1024x1024 .bf16) (h5 : a5.IsWhole) (a6 : Memref sig .tc .vmem S1x3072 .f32) (h6 : a6.IsWhole)
    (a7 : Memref sig .tc .vmem S1x2048 .f32) (h7 : a7.IsWhole) (a8 : Memref sig .tc .vmem S1x1024 .f32) (h8 : a8.IsWhole)
    (a9 : Memref sig .tc .vmem S256x1024 .f32) (h9 : a9.IsWhole)
    (x0 x1 : Vec F S256x1024 .f32) (x2 : Vec F S1024x3072 .bf16) (x3 : Vec F S1024x2048 .bf16) (x4 : Vec F S1024x1024 .bf16)
    (x5 : Vec F S1x3072 .f32) (x6 : Vec F S1x2048 .f32) (x7 : Vec F S1x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (newState x0 x1 x2 x3 x4 x5 x6 x7)) -∗ K ⟨⟩))
      ⊢ wp frame (wpE (defs₀ (F := F)) Variants.none c none) E
          (cc0__gru_kernel i a1 h1 a2 h2 a3 h3 a4 h4 a5 h5 a6 h6 a7 h7 a8 h8 a9 h9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (newState_cover _)

end Cert.KernelIdeal.Cell

end
-- ==== Proof.IdealHost.lean ====
/-
  The host side of the program, up to the one kernel launch.

  Before the launch the host transposes the six weight matrices, joins the transposed matrices side by side into the
  three fused weights (and rounds them to bfloat16), joins the bias vectors end to end and lays each out as one row.
  None of these sixteen operations writes an argument array, so the launch finds every argument as the program was
  started with it (`entry_main_argK`); `entry` names every buffer's contents at the launch, and `main_to_launch`
  says the program is those operations followed by the launch.
-/
import proofs.«120401_j27410481283547_2_alg».proof.Proof.Gen.KernelIdeal.Launch
import Idealize.ShloMosaic.Lib.Pipeline.FrameBody
import Idealize.ShloMosaic.Lib.StableHlo.Run

noncomputable section

namespace Cert.KernelIdeal.Cell

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the launch is reached: the launch memory after the host's sixteen operations. -/
abbrev entry (c : Dev nD) (b : Ref sig .tc) : Buf (Elt F) ((c : Thread nD τ).loc b) :=
  StableHlo.after hostOps0 (fun b => m (c, b)) b

/-- Every one of the sixteen operations writes a buffer that already holds a value. -/
theorem hostOps0_fresh : (hostOps0 : List (HloOp τ sig (Elt F))).Forall fun op => op.fresh = ∅ := by
  simp only [List.Forall]; repeat' constructor

/-- The program is the sixteen host operations, then the launch. -/
theorem main_to_launch (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes `main_arg0`: the launch finds it as the program was started with it. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg1`: the launch finds it as the program was started with it. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg2`: the launch finds it as the program was started with it. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg3`: the launch finds it as the program was started with it. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg4`: the launch finds it as the program was started with it. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg5`: the launch finds it as the program was started with it. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg6`: the launch finds it as the program was started with it. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg7`: the launch finds it as the program was started with it. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg8`: the launch finds it as the program was started with it. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg9`: the launch finds it as the program was started with it. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg10`: the launch finds it as the program was started with it. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg11`: the launch finds it as the program was started with it. -/
theorem entry_main_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg12`: the launch finds it as the program was started with it. -/
theorem entry_main_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation writes `main_arg13`: the launch finds it as the program was started with it. -/
theorem entry_main_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

end Cert.KernelIdeal.Cell

end
-- ==== Proof.IdealFrame.lean ====
/-
  The launch of the recurrent cell's kernel over its 32 grid points, and the frame it gives.

  Point `t` of the grid works on rows `256·t … 256·t + 255`: the pipeline hands the body the blocks of `x` and `h` at
  those rows, the three fused weights and the three bias rows whole (fetched once, at the first point, and left in
  place), and an output block, which it writes back to the result's rows after the body.  `blockAt` is a window's
  block at a point, read off the array as the launch finds it; `launchData` says what each staging buffer holds
  after the body (an input its block, the output `newState` of the eight input blocks); `run_launch` is the run of
  the whole program to the library's post (every array of the launch at what the write-backs leave, every other
  buffer as the launch found it); and `frame` reads off it that all fourteen argument arrays end as they began.
-/
import proofs.«120401_j27410481283547_2_alg».proof.Proof.IdealBody
import proofs.«120401_j27410481283547_2_alg».proof.Proof.IdealHost

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not (where it is not
    fetched its block index has not moved), for any proof data over the launch's arrays whose body leaves the block in place. -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (where it is not
    fetched its block index has not moved), for any proof data over the launch's arrays whose body leaves the block in place. -/
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (where it is not
    fetched its block index has not moved), for any proof data over the launch's arrays whose body leaves the block in place. -/
theorem found2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (where it is not
    fetched its block index has not moved), for any proof data over the launch's arrays whose body leaves the block in place. -/
theorem found3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (where it is not
    fetched its block index has not moved), for any proof data over the launch's arrays whose body leaves the block in place. -/
theorem found4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not (where it is not
    fetched its block index has not moved), for any proof data over the launch's arrays whose body leaves the block in place. -/
theorem found5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point, fetched there or not (where it is not
    fetched its block index has not moved), for any proof data over the launch's arrays whose body leaves the block in place. -/
theorem found6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point, fetched there or not (where it is not
    fetched its block index has not moved), for any proof data over the launch's arrays whose body leaves the block in place. -/
theorem found7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run to the library's post -/

/-- For any proof data over the launch's arrays, a run to the library's post is the frame: `x` and `h` are staged
    inputs, never written back; the other twelve arguments are no window's array and are left as the launch found
    them; and the launch found all fourteen as the program was started with them. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c)⟩) h

/-! ## The launch's proof data -/

/-- The proof data of the launch on core `c`: the arrays as the launch finds them; after the body at point `t` each
    input's buffer at its block and the output's at `newState` of the eight input blocks; the invariant is the scoped
    rest and the generator register, untouched; nothing owed; full shares. -/
def launchData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => newState (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

/-- The proof data's arrays are the launch's. -/
theorem launchData_A (c : Dev nD) (w : Fin cfg0.W) : (launchData m 0 c).A w = entry m c (Pipeline.arrRef spec0 w) := by
  dsimp only [launchData]

theorem after0 (c : Dev nD) (t : Fin cfg0.N) : (launchData m 0 c).after 0 t = blockAt m c 0 t := by dsimp only [launchData]
theorem after1 (c : Dev nD) (t : Fin cfg0.N) : (launchData m 0 c).after 1 t = blockAt m c 1 t := by dsimp only [launchData]
theorem after2 (c : Dev nD) (t : Fin cfg0.N) : (launchData m 0 c).after 2 t = blockAt m c 2 t := by dsimp only [launchData]
theorem after3 (c : Dev nD) (t : Fin cfg0.N) : (launchData m 0 c).after 3 t = blockAt m c 3 t := by dsimp only [launchData]
theorem after4 (c : Dev nD) (t : Fin cfg0.N) : (launchData m 0 c).after 4 t = blockAt m c 4 t := by dsimp only [launchData]
theorem after5 (c : Dev nD) (t : Fin cfg0.N) : (launchData m 0 c).after 5 t = blockAt m c 5 t := by dsimp only [launchData]
theorem after6 (c : Dev nD) (t : Fin cfg0.N) : (launchData m 0 c).after 6 t = blockAt m c 6 t := by dsimp only [launchData]
theorem after7 (c : Dev nD) (t : Fin cfg0.N) : (launchData m 0 c).after 7 t = blockAt m c 7 t := by dsimp only [launchData]
theorem after8 (c : Dev nD) (t : Fin cfg0.N) : (launchData m 0 c).after 8 t
    = newState (blockAt m c 0 t) (blockAt m c 1 t) (blockAt m c 2 t) (blockAt m c 3 t) (blockAt m c 4 t) (blockAt m c 5 t) (blockAt m c 6 t) (blockAt m c 7 t) := by
  dsimp only [launchData]

theorem found0 (c : Dev nD) (t : Fin cfg0.N) (d) : (launchData m 0 c).before 0 t d = blockAt m c 0 t :=
  found0_of m (launchData m 0 c) (launchData_A m c 0) (after0 m c) t d
theorem found1 (c : Dev nD) (t : Fin cfg0.N) (d) : (launchData m 0 c).before 1 t d = blockAt m c 1 t :=
  found1_of m (launchData m 0 c) (launchData_A m c 1) (after1 m c) t d
theorem found2 (c : Dev nD) (t : Fin cfg0.N) (d) : (launchData m 0 c).before 2 t d = blockAt m c 2 t :=
  found2_of m (launchData m 0 c) (launchData_A m c 2) (after2 m c) t d
theorem found3 (c : Dev nD) (t : Fin cfg0.N) (d) : (launchData m 0 c).before 3 t d = blockAt m c 3 t :=
  found3_of m (launchData m 0 c) (launchData_A m c 3) (after3 m c) t d
theorem found4 (c : Dev nD) (t : Fin cfg0.N) (d) : (launchData m 0 c).before 4 t d = blockAt m c 4 t :=
  found4_of m (launchData m 0 c) (launchData_A m c 4) (after4 m c) t d
theorem found5 (c : Dev nD) (t : Fin cfg0.N) (d) : (launchData m 0 c).before 5 t d = blockAt m c 5 t :=
  found5_of m (launchData m 0 c) (launchData_A m c 5) (after5 m c) t d
theorem found6 (c : Dev nD) (t : Fin cfg0.N) (d) : (launchData m 0 c).before 6 t d = blockAt m c 6 t :=
  found6_of m (launchData m 0 c) (launchData_A m c 6) (after6 m c) t d
theorem found7 (c : Dev nD) (t : Fin cfg0.N) (d) : (launchData m 0 c).before 7 t d = blockAt m c 7 t :=
  found7_of m (launchData m 0 c) (launchData_A m c 7) (after7 m c) t d

/-! ## The body obligation, at a generic point -/

/-- What the body is called with at point `t`, the windows one by one, -/
def bodyPre (c : Dev nD) (t : Fin cfg0.N) : sProp 𝕄 :=
  iprop((launchData m 0 c).Φ t.castSucc ∗ (launchData m 0 c).owesAt () t.castSucc
    ∗ (∃ d, owns (c : Thread nD τ) (st0_0 t) fullShare ((launchData m 0 c).before 0 t d))
    ∗ (∃ d, owns (c : Thread nD τ) (st0_1 t) fullShare ((launchData m 0 c).before 1 t d))
    ∗ (∃ d, owns (c : Thread nD τ) (st0_2 t) fullShare ((launchData m 0 c).before 2 t d))
    ∗ (∃ d, owns (c : Thread nD τ) (st0_3 t) fullShare ((launchData m 0 c).before 3 t d))
    ∗ (∃ d, owns (c : Thread nD τ) (st0_4 t) fullShare ((launchData m 0 c).before 4 t d))
    ∗ (∃ d, owns (c : Thread nD τ) (st0_5 t) fullShare ((launchData m 0 c).before 5 t d))
    ∗ (∃ d, owns (c : Thread nD τ) (st0_6 t) fullShare ((launchData m 0 c).before 6 t d))
    ∗ (∃ d, owns (c : Thread nD τ) (st0_7 t) fullShare ((launchData m 0 c).before 7 t d))
    ∗ (∃ d, owns (c : Thread nD τ) (st0_8 t) fullShare ((launchData m 0 c).before 8 t d)))

/-- and what it returns. -/
def bodyPost (c : Dev nD) (t : Fin cfg0.N) : sProp 𝕄 :=
  iprop((launchData m 0 c).Φ t.succ ∗ (launchData m 0 c).owesAt () t.succ
    ∗ owns (c : Thread nD τ) (st0_0 t) fullShare ((launchData m 0 c).after 0 t)
    ∗ owns (c : Thread nD τ) (st0_1 t) fullShare ((launchData m 0 c).after 1 t)
    ∗ owns (c : Thread nD τ) (st0_2 t) fullShare ((launchData m 0 c).after 2 t)
    ∗ owns (c : Thread nD τ) (st0_3 t) fullShare ((launchData m 0 c).after 3 t)
    ∗ owns (c : Thread nD τ) (st0_4 t) fullShare ((launchData m 0 c).after 4 t)
    ∗ owns (c : Thread nD τ) (st0_5 t) fullShare ((launchData m 0 c).after 5 t)
    ∗ owns (c : Thread nD τ) (st0_6 t) fullShare ((launchData m 0 c).after 6 t)
    ∗ owns (c : Thread nD τ) (st0_7 t) fullShare ((launchData m 0 c).after 7 t)
    ∗ owns (c : Thread nD τ) (st0_8 t) fullShare ((launchData m 0 c).after 8 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (launchData m 0 c).Φ t.succ = (launchData m 0 c).Φ t.castSucc from rfl,
    show (launchData m 0 c).owesAt () t.succ = (launchData m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (launchData (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the launch at what the library computes from the proof data and every other unscoped buffer
    as the launch found it. -/
theorem run_launch : θ_run defs (onTc (τ := τ) (main (F := F))) (s₀ m ρ) (Pipeline.FramePost cfgs (launchData m) 0 (entry m)) :=
  Pipeline.θ_run_frame cfgs (launchData m) (0 : Fin 1) launch0 defs₀ Variants.none m ρ main
    (hbody := fun c => (body_obligation m c).loose) (hshare := fun c => (launchData m 0 c).share_full fun _ => rfl)
    (howed := fun _ _ => rfl) (V := entry m) (hmain := main_to_launch m Variants.none) (hA := launchData_A m) (hΦ := fun _ _ => rfl)

/-- The frame: the program runs to the end, faults nowhere, and leaves its fourteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (launchData m) (launchData_A m) (run_launch m ρ)

end Cert.KernelIdeal.Cell

end
-- ==== Proof.LibGruCell.lean ====
/-
  One step of a gated recurrent unit, for one row of the batch, on the extended reals.

  For a row `xr` of the input and a row `hr` of the previous state, both of width `D`, and six weight matrices
  `w c k` (output unit `c`, input unit `k`) with their bias vectors:
  * `lin row w b c` is the affine form `(∑ k, row k · w c k) + b c`;
  * `gate` is the sigmoid of the sum of an affine form of the input row and an affine form of the state row
    (the update gate `z` and the reset gate `r` are both of this shape);
  * `gruRow` is entry `c` of the new state: `(1 − z c) · hr c + z c · tanh (lin xr wh bwh c + lin (r ∘· hr) uh buh c)`,
    where the candidate's second affine form is taken of the state row scaled entrywise by the reset gate.
  The number one is a parameter `one`, so that a program's own spelling of it (a binary32 word) is never evaluated.
  `gruRow_assoc` is the same entry with the candidate's bias added last, `(a + s) + b` in place of `a + (s + b)`:
  addition of extended reals is associative, so the two arrangements agree with no finiteness assumption.
-/
import Idealize.ShloMosaic.Lib.ValueIdx
import Idealize.ShloMosaic.PureOps.Ideal

noncomputable section

namespace Cert.GruCell

open Idealize.ShloMosaic
open scoped BigOperators

/-- The affine form `(∑ k, row k · w c k) + b c`. -/
def lin {D : ℕ} (row : Fin D → EReal) (w : Fin D → Fin D → EReal) (b : Fin D → EReal) (c : Fin D) : EReal :=
  (∑ k : Fin D, row k * w c k) + b c

/-- A gate: the sigmoid of an affine form of the input row plus an affine form of the state row. -/
def gate {D : ℕ} (xr hr : Fin D → EReal) (w u : Fin D → Fin D → EReal) (bw bu : Fin D → EReal) (c : Fin D) : EReal :=
  Ideal.logistic (lin xr w bw c + lin hr u bu c)

/-- Entry `c` of the new state. -/
def gruRow {D : ℕ} (one : EReal) (xr hr : Fin D → EReal) (wz uz wr ur wh uh : Fin D → Fin D → EReal)
    (bwz buz bwr bur bwh buh : Fin D → EReal) (c : Fin D) : EReal :=
  (one - gate xr hr wz uz bwz buz c) * hr c
    + gate xr hr wz uz bwz buz c
        * Ideal.tanh (lin xr wh bwh c + lin (fun k => gate xr hr wr ur bwr bur k * hr k) uh buh c)

/-- The same entry when the candidate's second bias is added after the two sums have been added. -/
theorem gruRow_assoc {D : ℕ} (one : EReal) (xr hr : Fin D → EReal) (wz uz wr ur wh uh : Fin D → Fin D → EReal)
    (bwz buz bwr bur bwh buh : Fin D → EReal) (c : Fin D) :
    (one - gate xr hr wz uz bwz buz c) * hr c
      + gate xr hr wz uz bwz buz c
          * Ideal.tanh ((lin xr wh bwh c + ∑ k : Fin D, (gate xr hr wr ur bwr bur k * hr k) * uh c k) + buh c)
    = gruRow one xr hr wz uz wr ur wh uh bwz buz bwr bur bwh buh c := by
  unfold gruRow
  rw [add_assoc]
  rfl

end Cert.GruCell

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.IdealPayload.lean ====
/-
  The body's arithmetic, read at one entry.

  With `x`, `h` the 256-row blocks of the input and the previous state, `wx` (1024 × 3072), `wh` (1024 × 2048),
  `wc` (1024 × 1024) the fused weights and `bx`, `bh`, `bc` their bias rows, the body forms `x · wx + bx` and
  `h · wh + bh`, cuts them into column bands of width 1024 (update, reset, candidate), takes the two sigmoids, then
  `(r ∘ h) · wc + bc`, the hyperbolic tangent, and the gated mix.  On the extended reals a rounding to bfloat16 is
  the identity and a product into a zero accumulator is a plain sum, so entry `(r, c)` of the result is the gated
  recurrent unit's row function `gruRow` of row `r` of `x` and of `h`, with the weight of output unit `c` and input
  unit `k` read at `(k, c + 1024 · band)` of the fused weight and each bias at `(0, c + 1024 · band)` of its row.
-/
import proofs.«120401_j27410481283547_2_alg».proof.Proof.Gen.KernelIdeal.Skeleton
import proofs.«120401_j27410481283547_2_alg».proof.Proof.LibGruCell
import proofs.«120401_j27410481283547_2_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen
open Idealize.ShloMosaic Idealize.ShloMosaic.ValueIdx
open scoped BigOperators

open Cert.GruCell (lin gate gruRow)

/-- Column `c` of band `j` in a row of three bands of width 1024. -/
def col3 (j : Fin 3) (c : Fin 1024) : Fin 3072 := ⟨1024 * j.val + c.val, by have := c.isLt; have := j.isLt; omega⟩
/-- Column `c` of band `j` in a row of two bands of width 1024. -/
def col2 (j : Fin 2) (c : Fin 1024) : Fin 2048 := ⟨1024 * j.val + c.val, by have := c.isLt; have := j.isLt; omega⟩

theorem tanh_at {s : Shape} {φ : FTy} (v : FVec Ideal s φ) (i : s.Idx) : tanh v i = Ideal.tanh (v i) := rfl
theorem logistic_at {s : Shape} {φ : FTy} (v : FVec Ideal s φ) (i : s.Idx) : logistic v i = Ideal.logistic (v i) := rfl

/-- `x · wx + bx` at an entry: the row's product with the column, plus the bias row's entry. -/
theorem xside_apply (x : FVec Ideal S256x1024 .f32) (wx : FVec Ideal S1024x3072 .bf16) (bx : FVec Ideal S1x3072 .f32)
    (r : Fin 256) (q : Fin 3072) :
    k0_pay2 x wx bx (ix2 r q) = (∑ k : Fin 1024, x (ix2 r k) * wx (ix2 k q)) + bx (ix2 (0 : Fin 1) q) := by
  unfold k0_pay2
  rw [show dot_S256x1024_S1024x3072_S256x3072_1_0_0_1_n_n = DotDims.plain 256 1024 3072 from rfl]
  simp only [matmul, addf_apply, truncf_apply, shapeCast_self, Cert.LibMlp.matmul_zero_plain, broadcastTo_1b_ab_apply]

/-- `h · wh + bh` at an entry. -/
theorem hside_apply (h : FVec Ideal S256x1024 .f32) (wh : FVec Ideal S1024x2048 .bf16) (bh : FVec Ideal S1x2048 .f32)
    (r : Fin 256) (q : Fin 2048) :
    k0_pay3 h wh bh (ix2 r q) = (∑ k : Fin 1024, h (ix2 r k) * wh (ix2 k q)) + bh (ix2 (0 : Fin 1) q) := by
  unfold k0_pay3
  rw [show dot_S256x1024_S1024x2048_S256x2048_1_0_0_1_n_n = DotDims.plain 256 1024 2048 from rfl]
  simp only [matmul, addf_apply, truncf_apply, shapeCast_self, Cert.LibMlp.matmul_zero_plain, broadcastTo_1b_ab_apply]

/-- Band `j` of `x · wx + bx` at an entry: the affine form of the row with the band's weights and biases. -/
theorem xband_apply (x : FVec Ideal S256x1024 .f32) (wx : FVec Ideal S1024x3072 .bf16) (bx : FVec Ideal S1x3072 .f32)
    (j : Fin 3) (o : ℕ) (ho : o = 1024 * j.val) (hs : S256x3072.Slices ![0, o] S256x1024) (r : Fin 256) (c : Fin 1024) :
    extractStridedSlice S256x1024 ![0, o] (k0_pay2 (F := Ideal) x wx bx) hs (ix2 r c)
      = lin (fun k => x (ix2 r k)) (fun c k => wx (ix2 k (col3 j c))) (fun c => bx (ix2 (0 : Fin 1) (col3 j c))) c := by
  rw [slice2_axis1_apply o _ hs r c (col3 j c) (by subst ho; rfl), xside_apply]
  rfl

/-- Band `j` of `h · wh + bh` at an entry. -/
theorem hband_apply (h : FVec Ideal S256x1024 .f32) (wh : FVec Ideal S1024x2048 .bf16) (bh : FVec Ideal S1x2048 .f32)
    (j : Fin 2) (o : ℕ) (ho : o = 1024 * j.val) (hs : S256x2048.Slices ![0, o] S256x1024) (r : Fin 256) (c : Fin 1024) :
    extractStridedSlice S256x1024 ![0, o] (k0_pay3 (F := Ideal) h wh bh) hs (ix2 r c)
      = lin (fun k => h (ix2 r k)) (fun c k => wh (ix2 k (col2 j c))) (fun c => bh (ix2 (0 : Fin 1) (col2 j c))) c := by
  rw [slice2_axis1_apply o _ hs r c (col2 j c) (by subst ho; rfl), hside_apply]
  rfl

/-- The sigmoid of the sum of band `j3` of the input side and band `j2` of the state side is a gate of the rows. -/
theorem gate_apply (x h : FVec Ideal S256x1024 .f32) (wx : FVec Ideal S1024x3072 .bf16) (bx : FVec Ideal S1x3072 .f32)
    (wh : FVec Ideal S1024x2048 .bf16) (bh : FVec Ideal S1x2048 .f32)
    (j3 : Fin 3) (j2 : Fin 2) (o3 o2 : ℕ) (ho3 : o3 = 1024 * j3.val) (ho2 : o2 = 1024 * j2.val)
    (hs3 : S256x3072.Slices ![0, o3] S256x1024) (hs2 : S256x2048.Slices ![0, o2] S256x1024) (r : Fin 256) (c : Fin 1024) :
    logistic (addf (extractStridedSlice S256x1024 ![0, o3] (k0_pay2 (F := Ideal) x wx bx) hs3) (extractStridedSlice S256x1024 ![0, o2] (k0_pay3 (F := Ideal) h wh bh) hs2)) (ix2 r c)
      = gate (fun k => x (ix2 r k)) (fun k => h (ix2 r k)) (fun c k => wx (ix2 k (col3 j3 c))) (fun c k => wh (ix2 k (col2 j2 c)))
          (fun c => bx (ix2 (0 : Fin 1) (col3 j3 c))) (fun c => bh (ix2 (0 : Fin 1) (col2 j2 c))) c := by
  rw [logistic_at, addf_apply, xband_apply x wx bx j3 o3 ho3 hs3, hband_apply h wh bh j2 o2 ho2 hs2]
  rfl

/-- The update gate at an entry. -/
theorem update_apply (x h : FVec Ideal S256x1024 .f32) (wx : FVec Ideal S1024x3072 .bf16) (bx : FVec Ideal S1x3072 .f32)
    (wh : FVec Ideal S1024x2048 .bf16) (bh : FVec Ideal S1x2048 .f32) (r : Fin 256) (c : Fin 1024) :
    k0_pay4 (F := Ideal) x h wx bx wh bh (ix2 r c)
      = gate (fun k => x (ix2 r k)) (fun k => h (ix2 r k)) (fun c k => wx (ix2 k (col3 0 c))) (fun c k => wh (ix2 k (col2 0 c)))
          (fun c => bx (ix2 (0 : Fin 1) (col3 0 c))) (fun c => bh (ix2 (0 : Fin 1) (col2 0 c))) c := by
  unfold k0_pay4
  exact gate_apply x h wx bx wh bh 0 0 0 0 rfl rfl _ _ r c

/-- The candidate state at an entry: the hyperbolic tangent of the input side's third band plus the affine form, with the
    unfused weight, of the state row scaled entrywise by the reset gate. -/
theorem candidate_apply (x h : FVec Ideal S256x1024 .f32) (wx : FVec Ideal S1024x3072 .bf16) (bx : FVec Ideal S1x3072 .f32)
    (wh : FVec Ideal S1024x2048 .bf16) (bh : FVec Ideal S1x2048 .f32) (wc : FVec Ideal S1024x1024 .bf16) (bc : FVec Ideal S1x1024 .f32)
    (r : Fin 256) (c : Fin 1024) :
    k0_pay5 (F := Ideal) x h wx bx wh bh wc bc (ix2 r c)
      = Ideal.tanh (lin (fun k => x (ix2 r k)) (fun c k => wx (ix2 k (col3 2 c))) (fun c => bx (ix2 (0 : Fin 1) (col3 2 c))) c
          + lin (fun k => gate (fun k => x (ix2 r k)) (fun k => h (ix2 r k)) (fun c k => wx (ix2 k (col3 1 c))) (fun c k => wh (ix2 k (col2 1 c)))
                    (fun c => bx (ix2 (0 : Fin 1) (col3 1 c))) (fun c => bh (ix2 (0 : Fin 1) (col2 1 c))) k * h (ix2 r k))
              (fun c k => wc (ix2 k c)) (fun c => bc (ix2 (0 : Fin 1) c)) c) := by
  unfold k0_pay5
  rw [show dot_S256x1024_S1024x1024_S256x1024_1_0_0_1_n_n = DotDims.plain 256 1024 1024 from rfl]
  rw [tanh_at, addf_apply, addf_apply, xband_apply x wx bx 2 2048 rfl]
  simp only [matmul, Cert.LibMlp.matmul_zero_plain, broadcastTo_1b_ab_apply, shapeCast_self, truncf_apply, mulf_apply,
    gate_apply x h wx bx wh bh 1 1 1024 1024 rfl rfl]
  rfl

/-- The number one as the body spells it. -/
theorem one_apply (i : S256x1024.Idx) : k0_pay6 (F := Ideal) i = Ideal.ofBits .f32 0x3F800000#32 := rfl

/-- **Entry `(r, c)` of the block the body stores** is the gated recurrent unit's row function of row `r` of the two
    blocks, with the fused weights and bias rows read band by band. -/
theorem stored_entry (x h : FVec Ideal S256x1024 .f32) (wx : FVec Ideal S1024x3072 .bf16) (wh : FVec Ideal S1024x2048 .bf16)
    (wc : FVec Ideal S1024x1024 .bf16) (bx : FVec Ideal S1x3072 .f32) (bh : FVec Ideal S1x2048 .f32) (bc : FVec Ideal S1x1024 .f32)
    (r : Fin 256) (c : Fin 1024) :
    k0_pay1 (F := Ideal) h (k0_pay4 x h wx bx wh bh) (k0_pay5 x h wx bx wh bh wc bc) (k0_pay6 (F := Ideal)) (ix2 r c)
      = gruRow (Ideal.ofBits .f32 0x3F800000#32) (fun k => x (ix2 r k)) (fun k => h (ix2 r k))
          (fun c k => wx (ix2 k (col3 0 c))) (fun c k => wh (ix2 k (col2 0 c)))
          (fun c k => wx (ix2 k (col3 1 c))) (fun c k => wh (ix2 k (col2 1 c)))
          (fun c k => wx (ix2 k (col3 2 c))) (fun c k => wc (ix2 k c))
          (fun c => bx (ix2 (0 : Fin 1) (col3 0 c))) (fun c => bh (ix2 (0 : Fin 1) (col2 0 c)))
          (fun c => bx (ix2 (0 : Fin 1) (col3 1 c))) (fun c => bh (ix2 (0 : Fin 1) (col2 1 c)))
          (fun c => bx (ix2 (0 : Fin 1) (col3 2 c))) (fun c => bc (ix2 (0 : Fin 1) c)) c := by
  unfold k0_pay1
  rw [addf_apply, mulf_apply, mulf_apply, subf_apply, one_apply, update_apply, candidate_apply]
  rfl

end Cert.KernelIdeal.CellValue

end
-- ==== Proof.IdealWeights.lean ====
/-
  What the kernel's weight and bias windows hold at the launch, read at an entry.

  The host lays the six weight matrices out for the kernel as three fused matrices: each `W` (output unit × input
  unit) is transposed, the transposes are set side by side (three for the input side, two for the state side, one
  for the candidate), and the result is rounded to bfloat16 — the identity on the extended reals.  So the fused
  matrix at `(k, c + 1024 · band)` is `W_band (c, k)`.  The bias vectors are joined end to end and laid out as one
  row, so the row at `(0, c + 1024 · band)` is `b_band c`.
-/
import proofs.«120401_j27410481283547_2_alg».proof.Proof.IdealHost
import proofs.«120401_j27410481283547_2_alg».proof.Proof.IdealPayload
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.CellValue

open Cert.KernelIdeal Cert.KernelIdeal.Gen Cert.KernelIdeal.Cell
open Idealize.ShloMosaic Idealize.ShloMosaic.TcCoe Idealize.ShloMosaic.ValueIdx Idealize.SL.Sem Idealize.ShloMosaic.StableHlo

/-! ## Joining along an axis, read at an entry of a given band -/

section Join
variable {α : Type}

/-- Three 1024 × 1024 matrices set side by side: column `c` of band `j` is column `c` of the `j`-th matrix. -/
theorem join3_cols (a0 a1 a2 : S1024x1024.Idx → α) (h : Shape.Concatenates [S1024x1024, S1024x1024, S1024x1024] S1024x3072 1)
    (k c : Fin 1024) :
    concatenate S1024x3072 1 [⟨S1024x1024, a0⟩, ⟨S1024x1024, a1⟩, ⟨S1024x1024, a2⟩] h (ix2 k (col3 0 c)) = a0 (ix2 k c)
    ∧ concatenate S1024x3072 1 [⟨S1024x1024, a0⟩, ⟨S1024x1024, a1⟩, ⟨S1024x1024, a2⟩] h (ix2 k (col3 1 c)) = a1 (ix2 k c)
    ∧ concatenate S1024x3072 1 [⟨S1024x1024, a0⟩, ⟨S1024x1024, a1⟩, ⟨S1024x1024, a2⟩] h (ix2 k (col3 2 c)) = a2 (ix2 k c) := by
  refine ⟨?_, ?_, ?_⟩
  · exact concatenate_apply_piece 1 ([⟨S1024x1024, a0⟩, ⟨S1024x1024, a1⟩, ⟨S1024x1024, a2⟩] : List ((s : Shape) × (s.Idx → α))) h _ 0 (by simp) S1024x1024 a0 rfl rfl 0 rfl (ix2 k c)
      (fun b hb => by match b with | ⟨0, _⟩ => rfl | ⟨1, _⟩ => exact absurd rfl hb) rfl
  · exact concatenate_apply_piece 1 ([⟨S1024x1024, a0⟩, ⟨S1024x1024, a1⟩, ⟨S1024x1024, a2⟩] : List ((s : Shape) × (s.Idx → α))) h _ 1 (by simp) S1024x1024 a1 rfl rfl 1024 rfl (ix2 k c)
      (fun b hb => by match b with | ⟨0, _⟩ => rfl | ⟨1, _⟩ => exact absurd rfl hb) rfl
  · exact concatenate_apply_piece 1 ([⟨S1024x1024, a0⟩, ⟨S1024x1024, a1⟩, ⟨S1024x1024, a2⟩] : List ((s : Shape) × (s.Idx → α))) h _ 2 (by simp) S1024x1024 a2 rfl rfl 2048 rfl (ix2 k c)
      (fun b hb => by match b with | ⟨0, _⟩ => rfl | ⟨1, _⟩ => exact absurd rfl hb) rfl

/-- Two 1024 × 1024 matrices set side by side. -/
theorem join2_cols (a0 a1 : S1024x1024.Idx → α) (h : Shape.Concatenates [S1024x1024, S1024x1024] S1024x2048 1)
    (k c : Fin 1024) :
    concatenate S1024x2048 1 [⟨S1024x1024, a0⟩, ⟨S1024x1024, a1⟩] h (ix2 k (col2 0 c)) = a0 (ix2 k c)
    ∧ concatenate S1024x2048 1 [⟨S1024x1024, a0⟩, ⟨S1024x1024, a1⟩] h (ix2 k (col2 1 c)) = a1 (ix2 k c) := by
  refine ⟨?_, ?_⟩
  · exact concatenate_apply_piece 1 ([⟨S1024x1024, a0⟩, ⟨S1024x1024, a1⟩] : List ((s : Shape) × (s.Idx → α))) h _ 0 (by simp) S1024x1024 a0 rfl rfl 0 rfl (ix2 k c)
      (fun b hb => by match b with | ⟨0, _⟩ => rfl | ⟨1, _⟩ => exact absurd rfl hb) rfl
  · exact concatenate_apply_piece 1 ([⟨S1024x1024, a0⟩, ⟨S1024x1024, a1⟩] : List ((s : Shape) × (s.Idx → α))) h _ 1 (by simp) S1024x1024 a1 rfl rfl 1024 rfl (ix2 k c)
      (fun b hb => by match b with | ⟨0, _⟩ => rfl | ⟨1, _⟩ => exact absurd rfl hb) rfl

/-- Three vectors of 1024 entries joined end to end. -/
theorem join3_vec (a0 a1 a2 : S1024.Idx → α) (h : Shape.Concatenates [S1024, S1024, S1024] S3072 0) (c : Fin 1024) :
    concatenate S3072 0 [⟨S1024, a0⟩, ⟨S1024, a1⟩, ⟨S1024, a2⟩] h (ix1 (col3 0 c)) = a0 (ix1 c)
    ∧ concatenate S3072 0 [⟨S1024, a0⟩, ⟨S1024, a1⟩, ⟨S1024, a2⟩] h (ix1 (col3 1 c)) = a1 (ix1 c)
    ∧ concatenate S3072 0 [⟨S1024, a0⟩, ⟨S1024, a1⟩, ⟨S1024, a2⟩] h (ix1 (col3 2 c)) = a2 (ix1 c) := by
  refine ⟨?_, ?_, ?_⟩
  · exact concatenate_apply_piece 0 ([⟨S1024, a0⟩, ⟨S1024, a1⟩, ⟨S1024, a2⟩] : List ((s : Shape) × (s.Idx → α))) h _ 0 (by simp) S1024 a0 rfl rfl 0 rfl (ix1 c)
      (fun b hb => by match b with | ⟨0, _⟩ => exact absurd rfl hb) rfl
  · exact concatenate_apply_piece 0 ([⟨S1024, a0⟩, ⟨S1024, a1⟩, ⟨S1024, a2⟩] : List ((s : Shape) × (s.Idx → α))) h _ 1 (by simp) S1024 a1 rfl rfl 1024 rfl (ix1 c)
      (fun b hb => by match b with | ⟨0, _⟩ => exact absurd rfl hb) rfl
  · exact concatenate_apply_piece 0 ([⟨S1024, a0⟩, ⟨S1024, a1⟩, ⟨S1024, a2⟩] : List ((s : Shape) × (s.Idx → α))) h _ 2 (by simp) S1024 a2 rfl rfl 2048 rfl (ix1 c)
      (fun b hb => by match b with | ⟨0, _⟩ => exact absurd rfl hb) rfl

/-- Two vectors of 1024 entries joined end to end. -/
theorem join2_vec (a0 a1 : S1024.Idx → α) (h : Shape.Concatenates [S1024, S1024] S2048 0) (c : Fin 1024) :
    concatenate S2048 0 [⟨S1024, a0⟩, ⟨S1024, a1⟩] h (ix1 (col2 0 c)) = a0 (ix1 c)
    ∧ concatenate S2048 0 [⟨S1024, a0⟩, ⟨S1024, a1⟩] h (ix1 (col2 1 c)) = a1 (ix1 c) := by
  refine ⟨?_, ?_⟩
  · exact concatenate_apply_piece 0 ([⟨S1024, a0⟩, ⟨S1024, a1⟩] : List ((s : Shape) × (s.Idx → α))) h _ 0 (by simp) S1024 a0 rfl rfl 0 rfl (ix1 c)
      (fun b hb => by match b with | ⟨0, _⟩ => exact absurd rfl hb) rfl
  · exact concatenate_apply_piece 0 ([⟨S1024, a0⟩, ⟨S1024, a1⟩] : List ((s : Shape) × (s.Idx → α))) h _ 1 (by simp) S1024 a1 rfl rfl 1024 rfl (ix1 c)
      (fun b hb => by match b with | ⟨0, _⟩ => exact absurd rfl hb) rfl

end Join

/-! ## The windows' arrays at the launch, as terms of the arguments -/

variable (m : (ℓ : Loc nD τ sig) → Buf (Elt Ideal) ℓ)

theorem entry_wx (c : Dev nD) : (entry m c main_v4 : S1024x3072.Idx → EReal)
    = truncf (F := Ideal) .bf16 (concatenate S1024x3072 1 [⟨S1024x1024, transpose S1024x1024 [1, 0] (m ((c : Thread nD τ).loc main_arg2)) transposes_S1024x1024_S1024x1024_1_0⟩, ⟨S1024x1024, transpose S1024x1024 [1, 0] (m ((c : Thread nD τ).loc main_arg6)) transposes_S1024x1024_S1024x1024_1_0⟩, ⟨S1024x1024, transpose S1024x1024 [1, 0] (m ((c : Thread nD τ).loc main_arg10)) transposes_S1024x1024_S1024x1024_1_0⟩]
        concatenates_S1024x1024_S1024x1024_S1024x1024_S1024x3072_d1) bitsLt_bf16_f32 := by
  dsimp only [entry, hostOps0]; after_results <;> rfl

theorem entry_wh (c : Dev nD) : (entry m c main_v8 : S1024x2048.Idx → EReal)
    = truncf (F := Ideal) .bf16 (concatenate S1024x2048 1 [⟨S1024x1024, transpose S1024x1024 [1, 0] (m ((c : Thread nD τ).loc main_arg4)) transposes_S1024x1024_S1024x1024_1_0⟩, ⟨S1024x1024, transpose S1024x1024 [1, 0] (m ((c : Thread nD τ).loc main_arg8)) transposes_S1024x1024_S1024x1024_1_0⟩]
        concatenates_S1024x1024_S1024x1024_S1024x2048_d1) bitsLt_bf16_f32 := by
  dsimp only [entry, hostOps0]; after_results <;> rfl

theorem entry_wc (c : Dev nD) : (entry m c main_v10 : S1024x1024.Idx → EReal)
    = truncf (F := Ideal) .bf16 (transpose S1024x1024 [1, 0] (m ((c : Thread nD τ).loc main_arg12)) transposes_S1024x1024_S1024x1024_1_0) bitsLt_bf16_f32 := by
  dsimp only [entry, hostOps0]; after_results <;> rfl

theorem entry_bx (c : Dev nD) : (entry m c main_v12 : S1x3072.Idx → EReal)
    = shapeCast S1x3072 (concatenate S3072 0 [⟨S1024, m ((c : Thread nD τ).loc main_arg3)⟩, ⟨S1024, m ((c : Thread nD τ).loc main_arg7)⟩, ⟨S1024, m ((c : Thread nD τ).loc main_arg11)⟩]
        concatenates_S1024_S1024_S1024_S3072_d0) shapeCasts_S3072_S1x3072 := by
  dsimp only [entry, hostOps0]; after_results <;> rfl

theorem entry_bh (c : Dev nD) : (entry m c main_v14 : S1x2048.Idx → EReal)
    = shapeCast S1x2048 (concatenate S2048 0 [⟨S1024, m ((c : Thread nD τ).loc main_arg5)⟩, ⟨S1024, m ((c : Thread nD τ).loc main_arg9)⟩]
        concatenates_S1024_S1024_S2048_d0) shapeCasts_S2048_S1x2048 := by
  dsimp only [entry, hostOps0]; after_results <;> rfl

theorem entry_bc (c : Dev nD) : (entry m c main_v15 : S1x1024.Idx → EReal)
    = shapeCast S1x1024 (m ((c : Thread nD τ).loc main_arg13)) shapeCasts_S1024_S1x1024 := by
  dsimp only [entry, hostOps0]; after_results <;> rfl

/-! ## The same arrays read at an entry -/

/-- The fused input-side weight at `(k, q + 1024 · band)` is the band's matrix at `(q, k)`. -/
theorem wx_entry (c : Dev nD) (k q : Fin 1024) :
    entry m c main_v4 (ix2 k (col3 0 q)) = m ((c : Thread nD τ).loc main_arg2) (ix2 q k)
    ∧ entry m c main_v4 (ix2 k (col3 1 q)) = m ((c : Thread nD τ).loc main_arg6) (ix2 q k)
    ∧ entry m c main_v4 (ix2 k (col3 2 q)) = m ((c : Thread nD τ).loc main_arg10) (ix2 q k) := by
  rw [entry_wx]
  obtain ⟨h0, h1, h2⟩ := join3_cols (transpose S1024x1024 [1, 0] (m ((c : Thread nD τ).loc main_arg2)) transposes_S1024x1024_S1024x1024_1_0) (transpose S1024x1024 [1, 0] (m ((c : Thread nD τ).loc main_arg6)) transposes_S1024x1024_S1024x1024_1_0) (transpose S1024x1024 [1, 0] (m ((c : Thread nD τ).loc main_arg10)) transposes_S1024x1024_S1024x1024_1_0)
    concatenates_S1024x1024_S1024x1024_S1024x1024_S1024x3072_d1 k q
  refine ⟨?_, ?_, ?_⟩
  · rw [truncf_apply, h0, transpose_ix2_apply]
  · rw [truncf_apply, h1, transpose_ix2_apply]
  · rw [truncf_apply, h2, transpose_ix2_apply]

/-- The fused state-side weight at `(k, q + 1024 · band)` is the band's matrix at `(q, k)`. -/
theorem wh_entry (c : Dev nD) (k q : Fin 1024) :
    entry m c main_v8 (ix2 k (col2 0 q)) = m ((c : Thread nD τ).loc main_arg4) (ix2 q k)
    ∧ entry m c main_v8 (ix2 k (col2 1 q)) = m ((c : Thread nD τ).loc main_arg8) (ix2 q k) := by
  rw [entry_wh]
  obtain ⟨h0, h1⟩ := join2_cols (transpose S1024x1024 [1, 0] (m ((c : Thread nD τ).loc main_arg4)) transposes_S1024x1024_S1024x1024_1_0) (transpose S1024x1024 [1, 0] (m ((c : Thread nD τ).loc main_arg8)) transposes_S1024x1024_S1024x1024_1_0)
    concatenates_S1024x1024_S1024x1024_S1024x2048_d1 k q
  refine ⟨?_, ?_⟩
  · rw [truncf_apply, h0, transpose_ix2_apply]
  · rw [truncf_apply, h1, transpose_ix2_apply]

/-- The candidate's weight at `(k, q)` is its matrix at `(q, k)`. -/
theorem wc_entry (c : Dev nD) (k q : Fin 1024) : entry m c main_v10 (ix2 k q) = m ((c : Thread nD τ).loc main_arg12) (ix2 q k) := by
  rw [entry_wc, truncf_apply, transpose_ix2_apply]

/-- The input-side bias row at `(0, q + 1024 · band)` is the band's bias at `q`. -/
theorem bx_entry (c : Dev nD) (q : Fin 1024) :
    entry m c main_v12 (ix2 (0 : Fin 1) (col3 0 q)) = m ((c : Thread nD τ).loc main_arg3) (ix1 q)
    ∧ entry m c main_v12 (ix2 (0 : Fin 1) (col3 1 q)) = m ((c : Thread nD τ).loc main_arg7) (ix1 q)
    ∧ entry m c main_v12 (ix2 (0 : Fin 1) (col3 2 q)) = m ((c : Thread nD τ).loc main_arg11) (ix1 q) := by
  rw [entry_bx]
  obtain ⟨h0, h1, h2⟩ := join3_vec (m ((c : Thread nD τ).loc main_arg3)) (m ((c : Thread nD τ).loc main_arg7)) (m ((c : Thread nD τ).loc main_arg11)) concatenates_S1024_S1024_S1024_S3072_d0 q
  refine ⟨?_, ?_, ?_⟩
  · rw [shapeCast_a_1a_apply, h0]
  · rw [shapeCast_a_1a_apply, h1]
  · rw [shapeCast_a_1a_apply, h2]

/-- The state-side bias row at `(0, q + 1024 · band)` is the band's bias at `q`. -/
theorem bh_entry (c : Dev nD) (q : Fin 1024) :
    entry m c main_v14 (ix2 (0 : Fin 1) (col2 0 q)) = m ((c : Thread nD τ).loc main_arg5) (ix1 q)
    ∧ entry m c main_v14 (ix2 (0 : Fin 1) (col2 1 q)) = m ((c : Thread nD τ).loc main_arg9) (ix1 q) := by
  rw [entry_bh]
  obtain ⟨h0, h1⟩ := join2_vec (m ((c : Thread nD τ).loc main_arg5)) (m ((c : Thread nD τ).loc main_arg9)) concatenates_S1024_S1024_S2048_d0 q
  refine ⟨?_, ?_⟩
  · rw [shapeCast_a_1a_apply, h0]
  · rw [shapeCast_a_1a_apply, h1]

/-- The candidate's bias row at `(0, q)` is its bias at `q`. -/
theorem bc_entry (c : Dev nD) (q : Fin 1024) : entry m c main_v15 (ix2 (0 : Fin 1) q) = m ((c : Thread nD τ).loc main_arg13) (ix1 q) := by
  rw [entry_bc, shapeCast_a_1a_apply]

end Cert.KernelIdeal.CellValue

end
-- ==== Proof.IdealValue.lean ====
/-
  The result array of the kernel's program, as one function of the fourteen argument arrays.

  `cellResult` is the new state of every row: entry `(p, c)` is the gated recurrent unit's row function of row `p` of
  `x` and of `h` with the six weight matrices and their biases.  Point `t` of the grid writes back rows
  `256·t … 256·t + 255` of it (`written_eq`): the blocks of `x` and `h` it was handed are those rows, the fused
  weights and bias rows it was handed are the whole arrays the host prepared, and those hold the weight matrices
  and biases band by band.  The 32 row blocks cover the array (`covered`), so after the run the result array is
  `cellResult` of the arguments (`result_eq`), and `run` restates the program's run with that.
-/
import proofs.«120401_j27410481283547_2_alg».proof.Proof.IdealFrame
import proofs.«120401_j27410481283547_2_alg».proof.Proof.IdealWeights
import Idealize.ShloMosaic.Lib.Pipeline.Value

set_option maxRecDepth 16384

noncomputable section

namespace Cert.KernelIdeal.CellValue

open Cert.KernelIdeal Cert.KernelIdeal.Gen Cert.KernelIdeal.Cell
open Idealize.ShloMosaic Idealize.ShloMosaic.TcCoe Idealize.ShloMosaic.ValueIdx Idealize.SL.Sem
open Idealize.ShloMosaic.Pipeline (Dat)
open Cert.GruCell (gruRow)

/-- The new state of every row, from the input, the previous state, the six weight matrices (output unit × input
    unit) and their biases. -/
def cellResult (X H : S8192x1024.Idx → EReal) (wz uz wr ur wh uh : S1024x1024.Idx → EReal)
    (bwz buz bwr bur bwh buh : S1024.Idx → EReal) : S8192x1024.Idx → EReal := fun i =>
  gruRow (Ideal.ofBits .f32 0x3F800000#32) (fun k => X (ix2 (i 0) k)) (fun k => H (ix2 (i 0) k))
    (fun c k => wz (ix2 c k)) (fun c k => uz (ix2 c k)) (fun c k => wr (ix2 c k)) (fun c k => ur (ix2 c k))
    (fun c k => wh (ix2 c k)) (fun c k => uh (ix2 c k))
    (fun c => bwz (ix1 c)) (fun c => buz (ix1 c)) (fun c => bwr (ix1 c)) (fun c => bur (ix1 c))
    (fun c => bwh (ix1 c)) (fun c => buh (ix1 c)) (i 1)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the blocks of `x`, `h` and the result move one block of rows per point;
    every other window stays at its one whole block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `r` of point `t`'s block of rows. -/
def rowOf (t : Fin cfg0.N) (r : Fin 256) : Fin 8192 :=
  ⟨256 * t.val + r.val, by have := t.isLt; have := r.isLt; have h32 : cfg0.N = 32 := N_0; omega⟩

/-! ## Each window's block at a point, read at an entry -/

theorem x_block (c : Dev nD) (t : Fin cfg0.N) (r : Fin 256) (k : Fin 1024) :
    blockAt m c 0 t (ix2 r k) = (m ((c : Thread nD τ).loc main_arg0)) (ix2 (rowOf t r) k) := by
  obtain ⟨e0, e1, -⟩ := index_facts t
  show entry m c main_arg0 (((cfg0.win 0).blk t).view.emb (ix2 r k)) = _
  rw [entry_main_arg0]
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

theorem h_block (c : Dev nD) (t : Fin cfg0.N) (r : Fin 256) (k : Fin 1024) :
    blockAt m c 1 t (ix2 r k) = (m ((c : Thread nD τ).loc main_arg1)) (ix2 (rowOf t r) k) := by
  obtain ⟨-, -, e0, e1, -⟩ := index_facts t
  show entry m c main_arg1 (((cfg0.win 1).blk t).view.emb (ix2 r k)) = _
  rw [entry_main_arg1]
  refine congrArg _ (funext fun a => Fin.ext ?_)
  match a with
  | ⟨0, _⟩ => show win0_1.index t (0 : Fin 2) * 256 + 1 * r.val = 256 * t.val + r.val; omega
  | ⟨1, _⟩ => show win0_1.index t (1 : Fin 2) * 1024 + 1 * k.val = k.val; omega

theorem wx_block (c : Dev nD) (t : Fin cfg0.N) (k : Fin 1024) (q : Fin 3072) :
    blockAt m c 2 t (ix2 k q) = entry m c main_v4 (ix2 k q) := by
  obtain ⟨-, -, -, -, -, -, e0, e1, -⟩ := index_facts t
  show entry m c main_v4 (((cfg0.win 2).blk t).view.emb (ix2 k q)) = _
  refine congrArg _ (funext fun a => Fin.ext ?_)
  match a with
  | ⟨0, _⟩ => show win0_2.index t (0 : Fin 2) * 1024 + 1 * k.val = k.val; omega
  | ⟨1, _⟩ => show win0_2.index t (1 : Fin 2) * 3072 + 1 * q.val = q.val; omega

theorem wh_block (c : Dev nD) (t : Fin cfg0.N) (k : Fin 1024) (q : Fin 2048) :
    blockAt m c 3 t (ix2 k q) = entry m c main_v8 (ix2 k q) := by
  obtain ⟨-, -, -, -, -, -, -, -, e0, e1, -⟩ := index_facts t
  show entry m c main_v8 (((cfg0.win 3).blk t).view.emb (ix2 k q)) = _
  refine congrArg _ (funext fun a => Fin.ext ?_)
  match a with
  | ⟨0, _⟩ => show win0_3.index t (0 : Fin 2) * 1024 + 1 * k.val = k.val; omega
  | ⟨1, _⟩ => show win0_3.index t (1 : Fin 2) * 2048 + 1 * q.val = q.val; omega

theorem wc_block (c : Dev nD) (t : Fin cfg0.N) (k : Fin 1024) (q : Fin 1024) :
    blockAt m c 4 t (ix2 k q) = entry m c main_v10 (ix2 k q) := by
  obtain ⟨-, -, -, -, -, -, -, -, -, -, e0, e1, -⟩ := index_facts t
  show entry m c main_v10 (((cfg0.win 4).blk t).view.emb (ix2 k q)) = _
  refine congrArg _ (funext fun a => Fin.ext ?_)
  match a with
  | ⟨0, _⟩ => show win0_4.index t (0 : Fin 2) * 1024 + 1 * k.val = k.val; omega
  | ⟨1, _⟩ => show win0_4.index t (1 : Fin 2) * 1024 + 1 * q.val = q.val; omega

theorem bx_block (c : Dev nD) (t : Fin cfg0.N) (q : Fin 3072) :
    blockAt m c 5 t (ix2 (0 : Fin 1) q) = entry m c main_v12 (ix2 (0 : Fin 1) q) := by
  obtain ⟨-, -, -, -, -, -, -, -, -, -, -, -, e0, e1, -⟩ := index_facts t
  show entry m c main_v12 (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 3072 + 1 * q.val = q.val; omega

theorem bh_block (c : Dev nD) (t : Fin cfg0.N) (q : Fin 2048) :
    blockAt m c 6 t (ix2 (0 : Fin 1) q) = entry m c main_v14 (ix2 (0 : Fin 1) q) := by
  obtain ⟨-, -, -, -, -, -, -, -, -, -, -, -, -, -, e0, e1, -⟩ := index_facts t
  show entry m c main_v14 (((cfg0.win 6).blk t).view.emb (ix2 (0 : Fin 1) q)) = _
  refine congrArg _ (funext fun a => Fin.ext ?_)
  match a with
  | ⟨0, _⟩ => show win0_6.index t (0 : Fin 2) * 1 + 1 * 0 = 0; omega
  | ⟨1, _⟩ => show win0_6.index t (1 : Fin 2) * 2048 + 1 * q.val = q.val; omega

theorem bc_block (c : Dev nD) (t : Fin cfg0.N) (q : Fin 1024) :
    blockAt m c 7 t (ix2 (0 : Fin 1) q) = entry m c main_v15 (ix2 (0 : Fin 1) q) := by
  obtain ⟨-, -, -, -, -, -, -, -, -, -, -, -, -, -, -, -, e0, e1⟩ := index_facts t
  show entry m c main_v15 (((cfg0.win 7).blk t).view.emb (ix2 (0 : Fin 1) q)) = _
  refine congrArg _ (funext fun a => Fin.ext ?_)
  match a with
  | ⟨0, _⟩ => show win0_7.index t (0 : Fin 2) * 1 + 1 * 0 = 0; omega
  | ⟨1, _⟩ => show win0_7.index t (1 : Fin 2) * 1024 + 1 * q.val = q.val; omega

/-- An entry of point `t`'s block of the result sits at row `256·t + r`. -/
theorem out_emb (t : Fin cfg0.N) (r : Fin 256) (q : Fin 1024) :
    ((cfg0.win 8).blk t).view.emb (ix2 r q) = ix2 (rowOf t r) q := by
  obtain ⟨-, -, -, -, e0, e1, -⟩ := index_facts t
  refine funext fun a => Fin.ext ?_
  match a with
  | ⟨0, _⟩ => show win0_8.index t (0 : Fin 2) * 256 + 1 * r.val = 256 * t.val + r.val; omega
  | ⟨1, _⟩ => show win0_8.index t (1 : Fin 2) * 1024 + 1 * q.val = q.val; omega

/-! ## What a point writes back -/

/-- The stored block at `(r, q)`, with every window's block read off the arguments. -/
theorem stored_at (c : Dev nD) (t : Fin cfg0.N) (r : Fin 256) (q : Fin 1024) :
    k0_pay1 (F := Ideal) (blockAt m c 1 t)
        (k0_pay4 (blockAt m c 0 t) (blockAt m c 1 t) (blockAt m c 2 t) (blockAt m c 5 t) (blockAt m c 3 t) (blockAt m c 6 t))
        (k0_pay5 (blockAt m c 0 t) (blockAt m c 1 t) (blockAt m c 2 t) (blockAt m c 5 t) (blockAt m c 3 t) (blockAt m c 6 t) (blockAt m c 4 t) (blockAt m c 7 t))
        (k0_pay6 (F := Ideal)) (ix2 r q)
      = cellResult (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) (ix2 (rowOf t r) q) := by
  refine (stored_entry (blockAt m c 0 t) (blockAt m c 1 t) (blockAt m c 2 t) (blockAt m c 3 t) (blockAt m c 4 t)
    (blockAt m c 5 t) (blockAt m c 6 t) (blockAt m c 7 t) r q).trans ?_
  simp only [x_block, h_block, wx_block, wh_block, wc_block, bx_block, bh_block, bc_block,
    (wx_entry m c _ _).1, (wx_entry m c _ _).2.1, (wx_entry m c _ _).2.2, (wh_entry m c _ _).1, (wh_entry m c _ _).2,
    wc_entry m c, (bx_entry m c _).1, (bx_entry m c _).2.1, (bx_entry m c _).2.2, (bh_entry m c _).1, (bh_entry m c _).2, bc_entry m c]
  rfl

/-- What point `t` writes back is its block of rows of `cellResult` of the arguments. -/
theorem written_eq (c : Dev nD) (t : Fin cfg0.N) :
    (launchData m 0 c).flushed 8 t = ((cfg0.win 8).blk t).view.read (Elt Ideal) (cellResult (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13))) := by
  show (cfg0.win 8).cut (grid0.coords t) ((launchData m 0 c).after 8 t) = _
  rw [after8]
  unfold newState
  rw [View.canon_unit_zero zero_offsets]
  simp only [View.ld_unit_zero (S := S256x1024) zero_offsets, View.ld_unit_zero (S := S1024x3072) zero_offsets,
    View.ld_unit_zero (S := S1024x2048) zero_offsets, View.ld_unit_zero (S := S1024x1024) zero_offsets,
    View.ld_unit_zero (S := S1x3072) zero_offsets, View.ld_unit_zero (S := S1x2048) zero_offsets,
    View.ld_unit_zero (S := S1x1024) zero_offsets]
  funext y
  obtain ⟨r, q, rfl⟩ : ∃ (r : Fin 256) (q : Fin 1024), y = ix2 r q := ⟨y 0, y 1, eq_ix2 y⟩
  refine (stored_at m c t r q).trans ?_
  show _ = cellResult (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) (((cfg0.win 8).blk t).view.emb (ix2 r q))
  rw [out_emb]

/-! ## The 32 blocks of rows cover the result -/

theorem mem_block (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v16).slice (win0_8.rect t)).set ↔ _
  rw [View.set_slice_whole, Rect.mem_set_unit]
  exact Iff.rfl

/-- Every entry of the result is in the block of the point its row belongs to. -/
theorem covered (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have h32 : cfg0.N = 32 := N_0
  let t : Fin cfg0.N := ⟨(i 0).val / 256, by omega⟩
  obtain ⟨-, -, -, -, e0, e1, -⟩ := index_facts t
  have et : t.val = (i 0).val / 256 := rfl
  refine ⟨t, flush0_8 t, ?_⟩
  rw [mem_block]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- After the run the result array is `cellResult` of the arguments. -/
theorem result_eq (c : Dev nD) : (launchData m 0 c).arrAt 8 cfg0.N = cellResult (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) :=
  (launchData m 0 c).arrAt_eq_of_cover 8 _ (fun t _ => written_eq m c t) covered

/-! ## The run, read -/

/-- Every weakly fair execution of the program terminates with the result array at `cellResult` of the arguments
    and the fourteen arguments unchanged. -/
theorem run : θ_run defs (onTc (τ := τ) (main (F := Ideal))) ⟨m, fun _ => 0, ρ⟩ fun r => ∀ c : Dev nD,
      r.2.mem ((c : Thread nD τ).loc main_v16) = cellResult (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).1 8).trans (result_eq m c),
      ((h c).1 0).trans (((launchData m 0 c).arrAt_in 0 rfl _).trans ((launchData_A m c 0).trans (entry_main_arg0 m c))),
      ((h c).1 1).trans (((launchData m 0 c).arrAt_in 1 rfl _).trans ((launchData_A m c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c)⟩)
    (run_launch m ρ)

end Cert.KernelIdeal.CellValue

end
-- ==== Proof.LibLogisticSpelled.lean ====
/-
  The sigmoid written out with the binary32 word for one.

  A host program that expands the sigmoid writes `1 / (1 + e^(−t))` with its two ones as the binary32 constant
  `0x3F800000`; a vector unit's own sigmoid operation is, on the extended reals, by definition that quotient with the
  number one.  The word denotes the number one (`one_bits`), so the two agree at every extended real `t`, the infinities
  included (`logistic_spelled`; `logistic_spelled_host` is the same with the host's operation names).  No finiteness of
  `t` is needed.
-/
import Idealize.ShloMosaic.PureOps.Ideal

noncomputable section

namespace Cert.LibLogistic

open Idealize.ShloMosaic

/-- The binary32 word `0x3F800000` is the number one. -/
theorem one_bits : Ideal.ofBits .f32 0x3F800000#32 = (1 : EReal) := by
  simp [Ideal.ofBits, Ideal.ieee, -EReal.coe_mul]; norm_num

/-- The sigmoid spelled out with that word for its two ones — one over one plus the exponential of the negated
    argument — is the sigmoid. -/
theorem logistic_spelled (t : EReal) :
    Ideal.div (Ideal.ofBits .f32 0x3F800000#32) (Ideal.ofBits .f32 0x3F800000#32 + Ideal.exp (-t)) = Ideal.logistic t := by
  rw [one_bits]; rfl

/-- The same with the host's names for the quotient, the sum, the exponential and the negation. -/
theorem logistic_spelled_host (t : Ideal .f32) :
    FloatOps.hostDivf (Ideal.ofBits .f32 0x3F800000#32 : Ideal .f32)
        (FloatOps.addf (Ideal.ofBits .f32 0x3F800000#32 : Ideal .f32) (FloatOps.hostUnary .exp (FloatOps.hostNegf t)))
      = Ideal.logistic t :=
  logistic_spelled t

end Cert.LibLogistic

end
-- ==== Proof.RefEntry.lean ====
/-
  The reference program's result, read at one entry.

  The reference computes one step of a gated recurrent unit for every row of a batch: it stacks the three input-side
  weight matrices (and the two state-side ones for the gates) into one tall matrix, multiplies once, adds the stacked
  biases, and cuts the product back into its column bands; each gate is the sigmoid, written out as one over one plus
  the exponential of the negated argument, of the sum of an input-side and a state-side affine form; the candidate is the
  hyperbolic tangent of the input-side affine form plus the product of the gated state row with the last matrix, plus the
  last bias; the new state mixes the old state and the candidate by the update gate.

  Read at entry (p, c), every layer is a function of row p of the two batch matrices only:
  * a stacked-then-transposed weight matrix at (k, c + j·1024) is matrix j at (c, k);
  * a stacked bias, repeated down the rows, at (p, c + j·1024) is bias j at c;
  * a column band of the product-plus-bias at (p, c) is the affine form of the row with matrix j and bias j;
  * the written-out sigmoid is the sigmoid;
  so the result at (p, c) is entry c of the recurrent unit's row function. No finiteness is needed: both sides are the
  same sums of the same products on the extended reals, and the one regrouping of a sum is associativity.
-/
import proofs.«120401_j27410481283547_2_alg».proof.Proof.Gen.ReferenceIdeal.Read
import proofs.«120401_j27410481283547_2_alg».proof.Proof.LibGruCell
import proofs.«120401_j27410481283547_2_alg».proof.Proof.LibMlpRows
import proofs.«120401_j27410481283547_2_alg».proof.Proof.LibLogisticSpelled
import Idealize.ShloMosaic.Lib.ValueLayout

noncomputable section

namespace Cert.ReferenceIdeal.RefValue

open Idealize.ShloMosaic Idealize.ShloMosaic.ValueIdx Cert.ReferenceIdeal Cert.ReferenceIdeal.Read
open scoped BigOperators

/-! ## The stacked weight matrices, transposed -/

/-- Three stacked matrices at a row of the first band: the first matrix. -/
theorem w3_0 (x2 x6 x10 : (⟨S1024x1024, .f32⟩ : BufTy).Contents (Elt Ideal)) (k c : Fin 1024) :
    val_main_v0 (F := Ideal) x2 x6 x10 (ix2 (⟨c.val, by omega⟩ : Fin 3072) k) = x2 (ix2 c k) := by
  unfold val_main_v0
  exact concatenate_apply_piece (t := S3072x1024) (0 : Fin 2) _ _ _ 0 (by show (0 : Nat) < 3; omega) S1024x1024 x2 rfl rfl 0 rfl (ix2 c k)
    (fun b hb => by
      match b with
      | ⟨0, _⟩ => exact absurd rfl hb
      | ⟨1, _⟩ => rfl)
    (by show 0 + c.val = c.val; omega)

/-- Three stacked matrices at a row of the second band: the second matrix. -/
theorem w3_1 (x2 x6 x10 : (⟨S1024x1024, .f32⟩ : BufTy).Contents (Elt Ideal)) (k c : Fin 1024) :
    val_main_v0 (F := Ideal) x2 x6 x10 (ix2 (⟨1024 + c.val, by omega⟩ : Fin 3072) k) = x6 (ix2 c k) := by
  unfold val_main_v0
  exact concatenate_apply_piece (t := S3072x1024) (0 : Fin 2) _ _ _ 1 (by show (1 : Nat) < 3; omega) S1024x1024 x6 rfl rfl 1024 rfl (ix2 c k)
    (fun b hb => by
      match b with
      | ⟨0, _⟩ => exact absurd rfl hb
      | ⟨1, _⟩ => rfl)
    (by show 1024 + c.val = 1024 + c.val; rfl)

/-- Three stacked matrices at a row of the third band: the third matrix. -/
theorem w3_2 (x2 x6 x10 : (⟨S1024x1024, .f32⟩ : BufTy).Contents (Elt Ideal)) (k c : Fin 1024) :
    val_main_v0 (F := Ideal) x2 x6 x10 (ix2 (⟨2048 + c.val, by omega⟩ : Fin 3072) k) = x10 (ix2 c k) := by
  unfold val_main_v0
  exact concatenate_apply_piece (t := S3072x1024) (0 : Fin 2) _ _ _ 2 (by show (2 : Nat) < 3; omega) S1024x1024 x10 rfl rfl 2048 rfl (ix2 c k)
    (fun b hb => by
      match b with
      | ⟨0, _⟩ => exact absurd rfl hb
      | ⟨1, _⟩ => rfl)
    (by show 2048 + c.val = 2048 + c.val; rfl)

/-- Two stacked matrices at a row of the first band: the first matrix. -/
theorem w2_0 (x4 x8 : (⟨S1024x1024, .f32⟩ : BufTy).Contents (Elt Ideal)) (k c : Fin 1024) :
    val_main_v10 (F := Ideal) x4 x8 (ix2 (⟨c.val, by omega⟩ : Fin 2048) k) = x4 (ix2 c k) := by
  unfold val_main_v10
  exact concatenate_pair_apply_left (t := S2048x1024) (s₁ := S1024x1024) (s₂ := S1024x1024) (0 : Fin 2) x4 x8 _ _ rfl (ix2 c k)
    (fun b => by
      match b with
      | ⟨0, _⟩ => rfl
      | ⟨1, _⟩ => rfl)

/-- Two stacked matrices at a row of the second band: the second matrix. -/
theorem w2_1 (x4 x8 : (⟨S1024x1024, .f32⟩ : BufTy).Contents (Elt Ideal)) (k c : Fin 1024) :
    val_main_v10 (F := Ideal) x4 x8 (ix2 (⟨1024 + c.val, by omega⟩ : Fin 2048) k) = x8 (ix2 c k) := by
  unfold val_main_v10
  exact concatenate_pair_apply_right (t := S2048x1024) (s₁ := S1024x1024) (s₂ := S1024x1024) (0 : Fin 2) x4 x8 _ _ rfl rfl (ix2 c k)
    (fun b hb => by
      match b with
      | ⟨0, _⟩ => exact absurd rfl hb
      | ⟨1, _⟩ => rfl)
    (by show c.val + 1024 = 1024 + c.val; omega)

/-! ## The stacked biases -/

/-- Three stacked bias vectors at a position of the first band: the first vector. -/
theorem b3_0 (x3 x7 x11 : (⟨S1024, .f32⟩ : BufTy).Contents (Elt Ideal)) (c : Fin 1024) :
    val_main_v1 (F := Ideal) x3 x7 x11 (ix1 (⟨c.val, by omega⟩ : Fin 3072)) = x3 (ix1 c) := by
  unfold val_main_v1
  exact concatenate_apply_piece (t := S3072) (0 : Fin 1) _ _ _ 0 (by show (0 : Nat) < 3; omega) S1024 x3 rfl rfl 0 rfl (ix1 c)
    (fun b hb => by
      match b with
      | ⟨0, _⟩ => exact absurd rfl hb)
    (by show 0 + c.val = c.val; omega)

/-- Three stacked bias vectors at a position of the second band: the second vector. -/
theorem b3_1 (x3 x7 x11 : (⟨S1024, .f32⟩ : BufTy).Contents (Elt Ideal)) (c : Fin 1024) :
    val_main_v1 (F := Ideal) x3 x7 x11 (ix1 (⟨1024 + c.val, by omega⟩ : Fin 3072)) = x7 (ix1 c) := by
  unfold val_main_v1
  exact concatenate_apply_piece (t := S3072) (0 : Fin 1) _ _ _ 1 (by show (1 : Nat) < 3; omega) S1024 x7 rfl rfl 1024 rfl (ix1 c)
    (fun b hb => by
      match b with
      | ⟨0, _⟩ => exact absurd rfl hb)
    (by show 1024 + c.val = 1024 + c.val; rfl)

/-- Three stacked bias vectors at a position of the third band: the third vector. -/
theorem b3_2 (x3 x7 x11 : (⟨S1024, .f32⟩ : BufTy).Contents (Elt Ideal)) (c : Fin 1024) :
    val_main_v1 (F := Ideal) x3 x7 x11 (ix1 (⟨2048 + c.val, by omega⟩ : Fin 3072)) = x11 (ix1 c) := by
  unfold val_main_v1
  exact concatenate_apply_piece (t := S3072) (0 : Fin 1) _ _ _ 2 (by show (2 : Nat) < 3; omega) S1024 x11 rfl rfl 2048 rfl (ix1 c)
    (fun b hb => by
      match b with
      | ⟨0, _⟩ => exact absurd rfl hb)
    (by show 2048 + c.val = 2048 + c.val; rfl)

/-- Two stacked bias vectors at a position of the first band: the first vector. -/
theorem b2_0 (x5 x9 : (⟨S1024, .f32⟩ : BufTy).Contents (Elt Ideal)) (c : Fin 1024) :
    val_main_v11 (F := Ideal) x5 x9 (ix1 (⟨c.val, by omega⟩ : Fin 2048)) = x5 (ix1 c) := by
  unfold val_main_v11
  exact concatenate_pair_apply_left (t := S2048) (s₁ := S1024) (s₂ := S1024) (0 : Fin 1) x5 x9 _ _ rfl (ix1 c)
    (fun b => by
      match b with
      | ⟨0, _⟩ => rfl)

/-- Two stacked bias vectors at a position of the second band: the second vector. -/
theorem b2_1 (x5 x9 : (⟨S1024, .f32⟩ : BufTy).Contents (Elt Ideal)) (c : Fin 1024) :
    val_main_v11 (F := Ideal) x5 x9 (ix1 (⟨1024 + c.val, by omega⟩ : Fin 2048)) = x9 (ix1 c) := by
  unfold val_main_v11
  exact concatenate_pair_apply_right (t := S2048) (s₁ := S1024) (s₂ := S1024) (0 : Fin 1) x5 x9 _ _ rfl rfl (ix1 c)
    (fun b hb => by
      match b with
      | ⟨0, _⟩ => exact absurd rfl hb)
    (by show c.val + 1024 = 1024 + c.val; omega)

/-! ## The two wide products with their biases, at an entry -/

/-- The input-side product plus bias at (p, c'): row p of the input against row c' of the stacked matrix, plus the
    stacked bias at c'. -/
theorem wide_x (x0 : (⟨S8192x1024, .f32⟩ : BufTy).Contents (Elt Ideal))
    (x2 : (⟨S1024x1024, .f32⟩ : BufTy).Contents (Elt Ideal)) (x3 : (⟨S1024, .f32⟩ : BufTy).Contents (Elt Ideal))
    (x6 : (⟨S1024x1024, .f32⟩ : BufTy).Contents (Elt Ideal)) (x7 : (⟨S1024, .f32⟩ : BufTy).Contents (Elt Ideal))
    (x10 : (⟨S1024x1024, .f32⟩ : BufTy).Contents (Elt Ideal)) (x11 : (⟨S1024, .f32⟩ : BufTy).Contents (Elt Ideal))
    (p : Fin 8192) (c' : Fin 3072) :
    val_main_v6 (F := Ideal) x0 x2 x3 x6 x7 x10 x11 (ix2 p c')
      = (∑ k : Fin 1024, x0 (ix2 p k) * val_main_v0 (F := Ideal) x2 x6 x10 (ix2 c' k)) + val_main_v1 (F := Ideal) x3 x7 x11 (ix1 c') := by
  rw [val_main_v6_apply, val_main_v3_apply, val_main_v5_apply, val_main_v4_apply]
  have eb : idx_main_v4 (idx_main_v5 (ix2 p c')) = ix1 c' := funext fun a => match a with | ⟨0, _⟩ => rfl
  rw [eb]
  refine congrArg (· + _) (Finset.sum_congr rfl fun k _ => ?_)
  have el : lidx_main_v3 (ix2 p c') k = ix2 p k := funext fun a => match a with | ⟨0, _⟩ => rfl | ⟨1, _⟩ => rfl
  have er : idx_main_v2 (ridx_main_v3 (ix2 p c') k) = ix2 c' k := funext fun a => match a with | ⟨0, _⟩ => rfl | ⟨1, _⟩ => rfl
  rw [el, val_main_v2_apply, er]

/-- The state-side product plus bias at (p, c'). -/
theorem wide_h (x1 : (⟨S8192x1024, .f32⟩ : BufTy).Contents (Elt Ideal))
    (x4 : (⟨S1024x1024, .f32⟩ : BufTy).Contents (Elt Ideal)) (x5 : (⟨S1024, .f32⟩ : BufTy).Contents (Elt Ideal))
    (x8 : (⟨S1024x1024, .f32⟩ : BufTy).Contents (Elt Ideal)) (x9 : (⟨S1024, .f32⟩ : BufTy).Contents (Elt Ideal))
    (p : Fin 8192) (c' : Fin 2048) :
    val_main_v16 (F := Ideal) x1 x4 x5 x8 x9 (ix2 p c')
      = (∑ k : Fin 1024, x1 (ix2 p k) * val_main_v10 (F := Ideal) x4 x8 (ix2 c' k)) + val_main_v11 (F := Ideal) x5 x9 (ix1 c') := by
  rw [val_main_v16_apply, val_main_v13_apply, val_main_v15_apply, val_main_v14_apply]
  have eb : idx_main_v14 (idx_main_v15 (ix2 p c')) = ix1 c' := funext fun a => match a with | ⟨0, _⟩ => rfl
  rw [eb]
  refine congrArg (· + _) (Finset.sum_congr rfl fun k _ => ?_)
  have el : lidx_main_v13 (ix2 p c') k = ix2 p k := funext fun a => match a with | ⟨0, _⟩ => rfl | ⟨1, _⟩ => rfl
  have er : idx_main_v12 (ridx_main_v13 (ix2 p c') k) = ix2 c' k := funext fun a => match a with | ⟨0, _⟩ => rfl | ⟨1, _⟩ => rfl
  rw [el, val_main_v12_apply, er]

/-! ## The column bands, the gates, the candidate and the mix, for one row -/

section Row

variable (x0 x1 : (⟨S8192x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 : (⟨S1024, .f32⟩ : BufTy).Contents (Elt Ideal))
  (x12 : (⟨S1024x1024, .f32⟩ : BufTy).Contents (Elt Ideal)) (x13 : (⟨S1024, .f32⟩ : BufTy).Contents (Elt Ideal))
  (p : Fin 8192) (c : Fin 1024)

/-- The first band of the input-side product: the affine form of the input row with the first matrix and bias. -/
theorem band_x0 :
    val_main_v7 (F := Ideal) x0 x2 x3 x6 x7 x10 x11 (ix2 p c)
      = Cert.GruCell.lin (fun k => x0 (ix2 p k)) (fun c k => x2 (ix2 c k)) (fun c => x3 (ix1 c)) c := by
  rw [val_main_v7_apply]
  have e : idx_main_v7 (ix2 p c) = ix2 p (⟨c.val, by omega⟩ : Fin 3072) :=
    funext fun a => match a with | ⟨0, _⟩ => rfl | ⟨1, _⟩ => rfl
  rw [e, wide_x]
  simp only [w3_0, b3_0]
  rfl

/-- The second band of the input-side product. -/
theorem band_x1 :
    val_main_v8 (F := Ideal) x0 x2 x3 x6 x7 x10 x11 (ix2 p c)
      = Cert.GruCell.lin (fun k => x0 (ix2 p k)) (fun c k => x6 (ix2 c k)) (fun c => x7 (ix1 c)) c := by
  rw [val_main_v8_apply]
  have e : idx_main_v8 (ix2 p c) = ix2 p (⟨1024 + c.val, by omega⟩ : Fin 3072) :=
    funext fun a => match a with | ⟨0, _⟩ => rfl | ⟨1, _⟩ => rfl
  rw [e, wide_x]
  simp only [w3_1, b3_1]
  rfl

/-- The third band of the input-side product. -/
theorem band_x2 :
    val_main_v9 (F := Ideal) x0 x2 x3 x6 x7 x10 x11 (ix2 p c)
      = Cert.GruCell.lin (fun k => x0 (ix2 p k)) (fun c k => x10 (ix2 c k)) (fun c => x11 (ix1 c)) c := by
  rw [val_main_v9_apply]
  have e : idx_main_v9 (ix2 p c) = ix2 p (⟨2048 + c.val, by omega⟩ : Fin 3072) :=
    funext fun a => match a with | ⟨0, _⟩ => rfl | ⟨1, _⟩ => rfl
  rw [e, wide_x]
  simp only [w3_2, b3_2]
  rfl

/-- The first band of the state-side product. -/
theorem band_h0 :
    val_main_v17 (F := Ideal) x1 x4 x5 x8 x9 (ix2 p c)
      = Cert.GruCell.lin (fun k => x1 (ix2 p k)) (fun c k => x4 (ix2 c k)) (fun c => x5 (ix1 c)) c := by
  rw [val_main_v17_apply]
  have e : idx_main_v17 (ix2 p c) = ix2 p (⟨c.val, by omega⟩ : Fin 2048) :=
    funext fun a => match a with | ⟨0, _⟩ => rfl | ⟨1, _⟩ => rfl
  rw [e, wide_h]
  simp only [w2_0, b2_0]
  rfl

/-- The second band of the state-side product. -/
theorem band_h1 :
    val_main_v18 (F := Ideal) x1 x4 x5 x8 x9 (ix2 p c)
      = Cert.GruCell.lin (fun k => x1 (ix2 p k)) (fun c k => x8 (ix2 c k)) (fun c => x9 (ix1 c)) c := by
  rw [val_main_v18_apply]
  have e : idx_main_v18 (ix2 p c) = ix2 p (⟨1024 + c.val, by omega⟩ : Fin 2048) :=
    funext fun a => match a with | ⟨0, _⟩ => rfl | ⟨1, _⟩ => rfl
  rw [e, wide_h]
  simp only [w2_1, b2_1]
  rfl

/-- The update gate: the written-out sigmoid of the sum of the two first bands. -/
theorem gate_z :
    val_main_v25 (F := Ideal) x0 x1 x2 x3 x4 x5 x6 x7 x8 x9 x10 x11 (ix2 p c)
      = Cert.GruCell.gate (fun k => x0 (ix2 p k)) (fun k => x1 (ix2 p k)) (fun c k => x2 (ix2 c k)) (fun c k => x4 (ix2 c k))
          (fun c => x3 (ix1 c)) (fun c => x5 (ix1 c)) c := by
  rw [val_main_v25_apply, val_main_v24_apply, val_main_cst_0_apply, val_main_v23_apply, val_main_v22_apply, val_main_cst_apply,
    val_main_v21_apply, val_main_v20_apply, val_main_v19_apply, band_x0, band_h0]
  exact Cert.LibLogistic.logistic_spelled_host _

/-- The reset gate: the written-out sigmoid of the sum of the two second bands. -/
theorem gate_r :
    val_main_v32 (F := Ideal) x0 x1 x2 x3 x4 x5 x6 x7 x8 x9 x10 x11 (ix2 p c)
      = Cert.GruCell.gate (fun k => x0 (ix2 p k)) (fun k => x1 (ix2 p k)) (fun c k => x6 (ix2 c k)) (fun c k => x8 (ix2 c k))
          (fun c => x7 (ix1 c)) (fun c => x9 (ix1 c)) c := by
  rw [val_main_v32_apply, val_main_v31_apply, val_main_cst_2_apply, val_main_v30_apply, val_main_v29_apply, val_main_cst_1_apply,
    val_main_v28_apply, val_main_v27_apply, val_main_v26_apply, band_x1, band_h1]
  exact Cert.LibLogistic.logistic_spelled_host _

/-- The candidate's argument: the third input-side band, plus the gated state row against the last matrix, plus the
    last bias added after the two. -/
theorem cand_arg :
    val_main_v39 (F := Ideal) x0 x1 x2 x3 x4 x5 x6 x7 x8 x9 x10 x11 x12 x13 (ix2 p c)
      = (Cert.GruCell.lin (fun k => x0 (ix2 p k)) (fun c k => x10 (ix2 c k)) (fun c => x11 (ix1 c)) c
          + ∑ k : Fin 1024, (Cert.GruCell.gate (fun k => x0 (ix2 p k)) (fun k => x1 (ix2 p k)) (fun c k => x6 (ix2 c k)) (fun c k => x8 (ix2 c k))
              (fun c => x7 (ix1 c)) (fun c => x9 (ix1 c)) k * x1 (ix2 p k)) * x12 (ix2 c k))
        + x13 (ix1 c) := by
  rw [val_main_v39_apply, val_main_v36_apply, band_x2, val_main_v35_apply, val_main_v38_apply, val_main_v37_apply]
  have eb : idx_main_v37 (idx_main_v38 (ix2 p c)) = ix1 c := funext fun a => match a with | ⟨0, _⟩ => rfl
  rw [eb]
  refine congrArg (· + _) (congrArg (_ + ·) (Finset.sum_congr rfl fun k _ => ?_))
  have el : lidx_main_v35 (ix2 p c) k = ix2 p k := funext fun a => match a with | ⟨0, _⟩ => rfl | ⟨1, _⟩ => rfl
  have er : idx_main_v34 (ridx_main_v35 (ix2 p c) k) = ix2 c k := funext fun a => match a with | ⟨0, _⟩ => rfl | ⟨1, _⟩ => rfl
  rw [el, val_main_v34_apply, er, val_main_v33_apply, gate_r]
  rfl

end Row

/-- **The reference's result at an entry** is entry `c` of the recurrent unit's row function of row `p`. -/
theorem reference_entry
    (x0 x1 : (⟨S8192x1024, .f32⟩ : BufTy).Contents (Elt Ideal)) (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal))
    (x12 : (⟨S1024x1024, .f32⟩ : BufTy).Contents (Elt Ideal)) (x13 : (⟨S1024, .f32⟩ : BufTy).Contents (Elt Ideal)) (p : Fin 8192) (c : Fin 1024) :
    Cert.ReferenceIdeal.Read.val_main_v45 (F := Ideal) x0 x1 x2 x3 x4 x5 x6 x7 x8 x9 x10 x11 x12 x13 (ix2 p c)
      = Cert.GruCell.gruRow (Ideal.ofBits .f32 0x3F800000#32) (fun k => x0 (ix2 p k)) (fun k => x1 (ix2 p k))
          (fun c k => x2 (ix2 c k)) (fun c k => x4 (ix2 c k)) (fun c k => x6 (ix2 c k)) (fun c k => x8 (ix2 c k)) (fun c k => x10 (ix2 c k)) (fun c k => x12 (ix2 c k))
          (fun c => x3 (ix1 c)) (fun c => x5 (ix1 c)) (fun c => x7 (ix1 c)) (fun c => x9 (ix1 c)) (fun c => x11 (ix1 c)) (fun c => x13 (ix1 c)) c := by
  rw [val_main_v45_apply, val_main_v43_apply, val_main_v44_apply, val_main_v42_apply, val_main_v41_apply, val_main_cst_3_apply,
    val_main_v40_apply, cand_arg, gate_z]
  simp only [Ideal.addf_def, Ideal.subf_def, Ideal.mulf_def, Ideal.hostUnary_tanh_def, Ideal.ofBits_def]
  exact Cert.GruCell.gruRow_assoc (Ideal.ofBits .f32 0x3F800000#32) (fun k => x0 (ix2 p k)) (fun k => x1 (ix2 p k))
    (fun c k => x2 (ix2 c k)) (fun c k => x4 (ix2 c k)) (fun c k => x6 (ix2 c k)) (fun c k => x8 (ix2 c k)) (fun c k => x10 (ix2 c k)) (fun c k => x12 (ix2 c k))
    (fun c => x3 (ix1 c)) (fun c => x5 (ix1 c)) (fun c => x7 (ix1 c)) (fun c => x9 (ix1 c)) (fun c => x11 (ix1 c)) (fun c => x13 (ix1 c)) c

end Cert.ReferenceIdeal.RefValue

end
-- ==== Proof.lean ====
/-
  One step of a gated recurrent unit over a batch of 8192 rows of width 1024: a kernel that works on blocks of 256
  rows with the six weight matrices fused into three (two sigmoid gates, a hyperbolic-tangent candidate, the gated
  mix), against the plain array program that stacks the weights, multiplies once per side and cuts the products
  into bands.

  * The kernel's program, read on machine words and read on the extended reals, runs to the end, faults nowhere and
    leaves its fourteen argument arrays unchanged: the host prepares the fused weights without writing an argument,
    and the launch stages `x` and `h` block by block and writes only the result.
  * The ideal pass rewrote nothing in the kernel, so there is nothing to preserve.
  * On the extended reals the kernel's result array and the reference's are one function of the arguments: entry
    `(p, c)` of either is the recurrent unit's row function of row `p` of `x` and of `h`.  The two programs differ
    only in where the weights are transposed and joined, in how the sigmoid is spelled (the vector unit's own
    operation against one over one plus the exponential of the negated argument), and in the grouping of one sum
    (the candidate's last bias is added before or after the input side's term), none of which changes a value on
    the extended reals; no finiteness of the inputs is used.
-/
import proofs.«120401_j27410481283547_2_alg».proof.Defs
import proofs.«120401_j27410481283547_2_alg».proof.Proof.Gen.Kernel
import proofs.«120401_j27410481283547_2_alg».proof.Proof.Gen.KernelIdeal
import proofs.«120401_j27410481283547_2_alg».proof.Proof.Gen.ReferenceIdeal
import proofs.«120401_j27410481283547_2_alg».proof.Proof.Gen.Pre_finite_inputs
import proofs.«120401_j27410481283547_2_alg».proof.Proof.BitsFrame
import proofs.«120401_j27410481283547_2_alg».proof.Proof.IdealFrame
import proofs.«120401_j27410481283547_2_alg».proof.Proof.IdealValue
import proofs.«120401_j27410481283547_2_alg».proof.Proof.RefEntry
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel's program on machine words runs and leaves its arguments unchanged. -/
theorem frame_words : Cert.frame_Kernel := fun m ρ _ => Cert.Kernel.Cell.frame m ρ

/-- The same program on the extended reals. -/
theorem frame_ideal : Cert.frame_KernelIdeal := fun m ρ _ => Cert.KernelIdeal.Cell.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments both programs end with the result at the recurrent unit's new state
    of every row: the kernel's by its 32 written-back blocks of rows, the reference's entry by entry. -/
theorem algebraic : Cert.algebraic_KernelIdeal_ReferenceIdeal := by
  intro m ρ m' ρ' _ hagree
  refine ⟨fun c => Cert.KernelIdeal.CellValue.cellResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)),
    Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq]
  obtain ⟨a0, a1, a2, a3, a4, a5, a6, a7, a8, a9, a10, a11, a12, a13⟩ := hagree c
  rw [a0, a1, a2, a3, a4, a5, a6, a7, a8, a9, a10, a11, a12, a13]
  funext i
  obtain ⟨p, q, rfl⟩ : ∃ (p : Fin 8192) (q : Fin 1024), i = ix2 p q := ⟨i 0, i 1, eq_ix2 i⟩
  exact Cert.ReferenceIdeal.RefValue.reference_entry _ _ _ _ _ _ _ _ _ _ _ _ _ _ p q

theorem claim : Cert.Claim := ⟨Cert.Kernel.Gen.facts, Cert.KernelIdeal.Gen.facts, Cert.ReferenceIdeal.Gen.facts, Cert.Pre_finite_inputs.Gen.facts,
  frame_words, frame_ideal, frame_reference, preserves, algebraic⟩

end Cert.Proof

end
